-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x32x32 : Shape := ⟨4, ![8, 2048, 32, 32]⟩
abbrev S256x4096 : Shape := ⟨2, ![256, 4096]⟩
abbrev S4096x256 : Shape := ⟨2, ![4096, 256]⟩
abbrev S_ : Shape := ⟨0, ![]⟩

class Facts : Prop where
  bcast_S_S8x2048x32x32 : S_.BroadcastsInDim S8x2048x32x32 (![] : Fin 0 → Fin S8x2048x32x32.rank)
  reducesTo_S8x2048x32x32_S_d0_1_2_3 : S8x2048x32x32.ReducesTo [0, 1, 2, 3] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  main_v18

def fn {F : FTy → Type} [FloatOps F] (main_arg0 : FVec F S8x2048x32x32 .f32) (main_arg1 : FVec F S8x2048x32x32 .f32) (main_arg2 : FVec F S256x4096 .f32) (main_arg3 : FVec F S4096x256 .f32) : IVec S_ 1 :=
  let main_v0 : FVec F S8x2048x32x32 .f32 := Host.absf main_arg0
  let main_cst : FVec F S_ .f32 := constant S_ .f32 0x7F800000#32
  let main_v1 : FVec F S8x2048x32x32 .f32 := broadcastInDim S8x2048x32x32 ![] bcast_S_S8x2048x32x32 main_cst
  let main_v2 : IVec S8x2048x32x32 1 := cmpf .olt main_v0 main_v1
  let main_c : IVec S_ 1 := constantI S_ 1 1#1
  let main_v3 : IVec S_ 1 := (fun x v => Host.reduce IntOp.andi x v reducesTo_S8x2048x32x32_S_d0_1_2_3 h_S_) main_v2 main_c
  let main_v4 : FVec F S8x2048x32x32 .f32 := Host.absf main_arg1
  let main_cst_0 : FVec F S_ .f32 := constant S_ .f32 0x7F800000#32
  let main_v5 : FVec F S8x2048x32x32 .f32 := broadcastInDim S8x2048x32x32 ![] bcast_S_S8x2048x32x32 main_cst_0
  let main_v6 : IVec S8x2048x32x32 1 := cmpf .olt main_v4 main_v5
  let main_c_1 : IVec S_ 1 := constantI S_ 1 1#1
  let main_v7 : IVec S_ 1 := (fun x v => Host.reduce IntOp.andi x v reducesTo_S8x2048x32x32_S_d0_1_2_3 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_v13 main_v16
-- ==== Kernel.lean ====
abbrev S8x2048x32x32 : Shape := ⟨4, ![8, 2048, 32, 32]⟩
abbrev S256x4096 : Shape := ⟨2, ![256, 4096]⟩
abbrev S4096x256 : Shape := ⟨2, ![4096, 256]⟩
abbrev S8x2048x1024 : Shape := ⟨3, ![8, 2048, 1024]⟩
abbrev S2048x8 : Shape := ⟨2, ![2048, 8]⟩
abbrev S8x64x1024 : Shape := ⟨3, ![8, 64, 1024]⟩
abbrev S64x8 : Shape := ⟨2, ![64, 8]⟩
abbrev S8x64 : Shape := ⟨2, ![8, 64]⟩
abbrev S8x64x1 : Shape := ⟨3, ![8, 64, 1]⟩
abbrev S4096x8 : Shape := ⟨2, ![4096, 8]⟩
abbrev S8x4096 : Shape := ⟨2, ![8, 4096]⟩
abbrev S8x256 : Shape := ⟨2, ![8, 256]⟩
abbrev S8x2048 : Shape := ⟨2, ![8, 2048]⟩
abbrev S8x4096x1024 : Shape := ⟨3, ![8, 4096, 1024]⟩
abbrev S8x128x1024 : Shape := ⟨3, ![8, 128, 1024]⟩
abbrev S128x8 : Shape := ⟨2, ![128, 8]⟩
abbrev S8x128 : Shape := ⟨2, ![8, 128]⟩
abbrev S8x128x1 : Shape := ⟨3, ![8, 128, 1]⟩
abbrev S8x4096x32x32 : Shape := ⟨4, ![8, 4096, 32, 32]⟩

abbrev nBuf : Space → Nat
  | .hbm => 20
  | .vmem => 32
  | .smem => 0
  | _ => 0

abbrev bufTy : (tb : Table) → Fin (tcTables nBuf tb) → BufTy
  | .hbm, ⟨0, _⟩ => ⟨S8x2048x32x32, .f32⟩
  | .hbm, ⟨1, _⟩ => ⟨S8x2048x32x32, .f32⟩
  | .hbm, ⟨2, _⟩ => ⟨S256x4096, .f32⟩
  | .hbm, ⟨3, _⟩ => ⟨S4096x256, .f32⟩
  | .hbm, ⟨4, _⟩ => ⟨S8x2048x1024, .f32⟩
  | .hbm, ⟨5, _⟩ => ⟨S8x2048x1024, .f32⟩
  | .hbm, ⟨6, _⟩ => ⟨S2048x8, .f32⟩
  | .hbm, ⟨7, _⟩ => ⟨S2048x8, .f32⟩
  | .hbm, ⟨8, _⟩ => ⟨S2048x8, .f32⟩
  | .hbm, ⟨9, _⟩ => ⟨S2048x8, .f32⟩
  | .hbm, ⟨10, _⟩ => ⟨S4096x8, .f32⟩
  | .hbm, ⟨11, _⟩ => ⟨S8x4096, .f32⟩
  | .hbm, ⟨12, _⟩ => ⟨S8x4096, .f32⟩
  | .hbm, ⟨13, _⟩ => ⟨S8x2048, .f32⟩
  | .hbm, ⟨14, _⟩ => ⟨S2048x8, .f32⟩
  | .hbm, ⟨15, _⟩ => ⟨S8x2048, .f32⟩
  | .hbm, ⟨16, _⟩ => ⟨S2048x8, .f32⟩
  | .hbm, ⟨17, _⟩ => ⟨S8x4096x1024, .f32⟩
  | .hbm, ⟨18, _⟩ => ⟨S8x4096x1024, .f32⟩
  | .hbm, ⟨19, _⟩ => ⟨S8x4096x32x32, .f32⟩
  | .local _ .vmem, ⟨0, _⟩ => ⟨S8x64x1024, .f32⟩
  | .local _ .vmem, ⟨1, _⟩ => ⟨S8x64x1024, .f32⟩
  | .local _ .vmem, ⟨2, _⟩ => ⟨S8x64x1024, .f32⟩
  | .local _ .vmem, ⟨3, _⟩ => ⟨S8x64x1024, .f32⟩
  | .local _ .vmem, ⟨4, _⟩ => ⟨S64x8, .f32⟩
  | .local _ .vmem, ⟨5, _⟩ => ⟨S64x8, .f32⟩
  | .local _ .vmem, ⟨6, _⟩ => ⟨S64x8, .f32⟩
  | .local _ .vmem, ⟨7, _⟩ => ⟨S64x8, .f32⟩
  | .local _ .vmem, ⟨8, _⟩ => ⟨S64x8, .f32⟩
  | .local _ .vmem, ⟨9, _⟩ => ⟨S64x8, .f32⟩
  | .local _ .vmem, ⟨10, _⟩ => ⟨S64x8, .f32⟩
  | .local _ .vmem, ⟨11, _⟩ => ⟨S64x8, .f32⟩
  | .local _ .vmem, ⟨12, _⟩ => ⟨S8x4096, .f32⟩
  | .local _ .vmem, ⟨13, _⟩ => ⟨S256x4096, .f32⟩
  | .local _ .vmem, ⟨14, _⟩ => ⟨S4096x256, .f32⟩
  | .local _ .vmem, ⟨15, _⟩ => ⟨S8x4096, .f32⟩
  | .local _ .vmem, ⟨16, _⟩ => ⟨S8x128x1024, .f32⟩
  | .local _ .vmem, ⟨17, _⟩ => ⟨S8x128x1024, .f32⟩
  | .local _ .vmem, ⟨18, _⟩ => ⟨S128x8, .f32⟩
  | .local _ .vmem, ⟨19, _⟩ => ⟨S128x8, .f32⟩
  | .local _ .vmem, ⟨20, _⟩ => ⟨S128x8, .f32⟩
  | .local _ .vmem, ⟨21, _⟩ => ⟨S128x8, .f32⟩
  | .local _ .vmem, ⟨22, _⟩ => ⟨S8x128x1024, .f32⟩
  | .local _ .vmem, ⟨23, _⟩ => ⟨S8x128x1024, .f32⟩
  | .local _ .vmem, ⟨24, _⟩ => ⟨S8x128x1024, .f32⟩
  | .local _ .vmem, ⟨25, _⟩ => ⟨S8x128x1024, .f32⟩
  | .local _ .vmem, ⟨26, _⟩ => ⟨S128x8, .f32⟩
  | .local _ .vmem, ⟨27, _⟩ => ⟨S128x8, .f32⟩
  | .local _ .vmem, ⟨28, _⟩ => ⟨S128x8, .f32⟩
  | .local _ .vmem, ⟨29, _⟩ => ⟨S128x8, .f32⟩
  | .local _ .vmem, ⟨30, _⟩ => ⟨S8x128x1024, .f32⟩
  | .local _ .vmem, ⟨31, _⟩ => ⟨S8x128x1024, .f32⟩
  | _, _ => ⟨S8x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S8x128x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x128x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, v0.toNat, c0_i32_0.toNat]

abbrev stage3_0 : Fin 2 → Memref sig .tc .vmem S8x128x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x8 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8x128x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S8x2048x32x32_S8x2048x1024 : S8x2048x32x32.ShapeCasts S8x2048x1024
  inb_S8x64x1024_S8x64x1024_0_0_0 : ∀ a, (![0, 0, 0] : Fin 3 → Nat) a + S8x64x1024.size a ≤ S8x64x1024.size a
  h_S8x64x1024 : 0 < S8x64x1024.numel
  shapeCasts_S8x64x1024_S8x64x1024 : S8x64x1024.ShapeCasts S8x64x1024
  reduces_S8x64x1024_S8x64 : S8x64x1024.Reduces [2] S8x64
  shapeCasts_S8x64_S8x64x1 : S8x64.ShapeCasts S8x64x1
  broadcasts_S8x64x1_S8x64x1024 : S8x64x1.Broadcasts S8x64x1024
  transposes_S8x64_p1_0_S64x8 : S8x64.Transposes [1, 0] S64x8
  inb_S64x8_S64x8_0_0 : ∀ a, (![0, 0] : Fin 2 → Nat) a + S64x8.size a ≤ S64x8.size a
  h_S64x8 : 0 < S64x8.numel
  concatenates_S2048x8_S2048x8_S4096x8_d0 : Shape.Concatenates [S2048x8, S2048x8] S4096x8 0
  transposes_S4096x8_S8x4096_1_0 : S4096x8.Transposes [1, 0] S8x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S4096x256_S4096x256_0_0 : ∀ a, (![0, 0] : Fin 2 → Nat) a + S4096x256.size a ≤ S4096x256.size a
  h_S4096x256 : 0 < S4096x256.numel
  transposes_S256x4096_p1_0_S4096x256 : S256x4096.Transposes [1, 0] S4096x256
  transposes_S4096x256_p1_0_S256x4096 : S4096x256.Transposes [1, 0] S256x4096
  slices_S8x4096_S8x2048_0_0 : S8x4096.Slices ![0, 0] S8x2048
  transposes_S8x2048_S2048x8_1_0 : S8x2048.Transposes [1, 0] S2048x8
  slices_S8x4096_S8x2048_0_2048 : S8x4096.Slices ![0, 2048] S8x2048
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  reduces_S8x128x1024_S8x128 : S8x128x1024.Reduces [2] S8x128
  shapeCasts_S8x128_S8x128x1 : S8x128.ShapeCasts S8x128x1
  broadcasts_S8x128x1_S8x128x1024 : S8x128x1.Broadcasts S8x128x1024
  inb_S128x8_S128x8_0_0 : ∀ a, (![0, 0] : Fin 2 → Nat) a + S128x8.size a ≤ S128x8.size a
  h_S128x8 : 0 < S128x8.numel
  shapeCasts_S128x8_S128x8 : S128x8.ShapeCasts S128x8
  transposes_S128x8_p1_0_S8x128 : S128x8.Transposes [1, 0] S8x128
  shapeCasts_S8x4096x1024_S8x4096x32x32 : S8x4096x1024.ShapeCasts S8x4096x32x32
  dot_S8x4096_S4096x256_S8x256_1_0_0_1_n_n_wf : DotDims.WF S8x4096 S4096x256 S8x256 [1] [0] [0] [1] [] []
  dot_S8x256_S256x4096_S8x4096_1_0_0_1_n_n_wf : DotDims.WF S8x256 S256x4096 S8x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x1024.size a ≤ S8x2048x1024.size a
  hwx0_0 : ∀ i : grid0.Coords, EltTy.bits .f32 = 32 ∨ (Rect.block (s := S8x2048x1024) S8x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x1024.size a ≤ S8x2048x1024.size a
  hwx0_1 : ∀ i : grid0.Coords, EltTy.bits .f32 = 32 ∨ (Rect.block (s := S8x2048x1024) S8x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8.size a ≤ S2048x8.size a
  hwx0_2 : ∀ i : grid0.Coords, EltTy.bits .f32 = 32 ∨ (Rect.block (s := S2048x8) S64x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x8.size a ≤ S2048x8.size a
  hwx0_3 : ∀ i : grid0.Coords, EltTy.bits .f32 = 32 ∨ (Rect.block (s := S2048x8) S64x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x8.size a ≤ S2048x8.size a
  hwx0_4 : ∀ i : grid0.Coords, EltTy.bits .f32 = 32 ∨ (Rect.block (s := S2048x8) S64x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x8.size a ≤ S2048x8.size a
  hwx0_5 : ∀ i : grid0.Coords, EltTy.bits .f32 = 32 ∨ (Rect.block (s := S2048x8) S64x8.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x4096.size a ≤ S8x4096.size a
  hwx1_0 : ∀ i : grid1.Coords, EltTy.bits .f32 = 32 ∨ (Rect.block (s := S8x4096) S8x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S256x4096.size a
  hwx1_1 : ∀ i : grid1.Coords, EltTy.bits .f32 = 32 ∨ (Rect.block (s := S256x4096) S256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S4096x256.size a
  hwx1_2 : ∀ i : grid1.Coords, EltTy.bits .f32 = 32 ∨ (Rect.block (s := S4096x256) S4096x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x4096.size a ≤ S8x4096.size a
  hwx1_3 : ∀ i : grid1.Coords, EltTy.bits .f32 = 32 ∨ (Rect.block (s := S8x4096) S8x4096.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x128x1024.size a ≤ S8x2048x1024.size a
  hwx2_0 : ∀ i : grid2.Coords, EltTy.bits .f32 = 32 ∨ (Rect.block (s := S8x2048x1024) S8x128x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x8.size a ≤ S2048x8.size a
  hwx2_1 : ∀ i : grid2.Coords, EltTy.bits .f32 = 32 ∨ (Rect.block (s := S2048x8) S128x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x8.size a ≤ S2048x8.size a
  hwx2_2 : ∀ i : grid2.Coords, EltTy.bits .f32 = 32 ∨ (Rect.block (s := S2048x8) S128x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x128x1024.size a ≤ S8x4096x1024.size a
  hwx2_3 : ∀ i : grid2.Coords, EltTy.bits .f32 = 32 ∨ (Rect.block (s := S8x4096x1024) S8x128x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x128x1024.size a ≤ S8x2048x1024.size a
  hwx3_0 : ∀ i : grid3.Coords, EltTy.bits .f32 = 32 ∨ (Rect.block (s := S8x2048x1024) S8x128x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x8.size a ≤ S2048x8.size a
  hwx3_1 : ∀ i : grid3.Coords, EltTy.bits .f32 = 32 ∨ (Rect.block (s := S2048x8) S128x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x8.size a ≤ S2048x8.size a
  hwx3_2 : ∀ i : grid3.Coords, EltTy.bits .f32 = 32 ∨ (Rect.block (s := S2048x8) S128x8.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_4 i = cc3_transform_4 i'
  hinb3_3 : ∀ (i : grid3.Coords) a, (cc3_transform_4 i a + 1) * S8x128x1024.size a ≤ S8x4096x1024.size a
  hwx3_3 : ∀ i : grid3.Coords, EltTy.bits .f32 = 32 ∨ (Rect.block (s := S8x4096x1024) S8x128x1024.size (cc3_transform_4 i) (hinb3_3 i)).WholeWords (EltTy.packing .f32)

variable [Facts₀]

def dot_S8x4096_S4096x256_S8x256_1_0_0_1_n_n : DotDims S8x4096 S4096x256 S8x256 where
  lhsContracting := [1]
  rhsContracting := [0]
  lhsNonContracting := [0]
  rhsNonContracting := [1]
  lhsBatch := []
  rhsBatch := []
  wf := dot_S8x4096_S4096x256_S8x256_1_0_0_1_n_n_wf
def dot_S8x256_S256x4096_S8x4096_1_0_0_1_n_n : DotDims S8x256 S256x4096 S8x4096 where
  lhsContracting := [1]
  rhsContracting := [0]
  lhsNonContracting := [0]
  rhsNonContracting := [1]
  lhsBatch := []
  rhsBatch := []
  wf := dot_S8x256_S256x4096_S8x4096_1_0_0_1_n_n_wf

abbrev win0_0 : Pipeline.Window sig grid0 :=
  Pipeline.Window.ofSpec (Memref.whole main_v0) S8x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S64x8.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S64x8.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S64x8.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S64x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S8x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S4096x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S8x4096.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S8x128x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_1) S128x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S128x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S8x128x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1) S8x128x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2_0) S128x8.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S128x8.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v11) S8x128x1024.size cc3_transform_4 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8x2048x32x32 : Shape := ⟨4, ![8, 2048, 32, 32]⟩
abbrev S256x4096 : Shape := ⟨2, ![256, 4096]⟩
abbrev S4096x256 : Shape := ⟨2, ![4096, 256]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S8x4096x32x32 : Shape := ⟨4, ![8, 4096, 32, 32]⟩
abbrev S8x4096 : Shape := ⟨2, ![8, 4096]⟩
abbrev S8x256 : Shape := ⟨2, ![8, 256]⟩
abbrev S8x4096x1x1 : Shape := ⟨4, ![8, 4096, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S8x2048x32x32, .f32⟩
  | .hbm, ⟨1, _⟩ => ⟨S8x2048x32x32, .f32⟩
  | .hbm, ⟨2, _⟩ => ⟨S256x4096, .f32⟩
  | .hbm, ⟨3, _⟩ => ⟨S4096x256, .f32⟩
  | .hbm, ⟨4, _⟩ => ⟨S8x2048x1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048x1, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S_, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x32x32, .f32⟩
  | .hbm, ⟨53, _⟩ => ⟨S8x2048x1024, .f32⟩
  | .hbm, ⟨54, _⟩ => ⟨S8x2048x1024, .f32⟩
  | .hbm, ⟨55, _⟩ => ⟨S_, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x32x32, .f32⟩
  | .hbm, ⟨60, _⟩ => ⟨S8x2048x32x32, .f32⟩
  | .hbm, ⟨61, _⟩ => ⟨S8x2048x32x32, .f32⟩
  | .hbm, ⟨62, _⟩ => ⟨S8x2048x32x32, .f32⟩
  | .hbm, ⟨63, _⟩ => ⟨S8x2048x32x32, .f32⟩
  | .hbm, ⟨64, _⟩ => ⟨S8x4096x32x32, .f32⟩
  | .hbm, ⟨65, _⟩ => ⟨S_, .f32⟩
  | .hbm, ⟨66, _⟩ => ⟨S8x4096, .f32⟩
  | .hbm, ⟨67, _⟩ => ⟨S_, .f32⟩
  | .hbm, ⟨68, _⟩ => ⟨S8x4096, .f32⟩
  | .hbm, ⟨69, _⟩ => ⟨S8x4096, .f32⟩
  | .hbm, ⟨70, _⟩ => ⟨S4096x256, .f32⟩
  | .hbm, ⟨71, _⟩ => ⟨S8x256, .f32⟩
  | .hbm, ⟨72, _⟩ => ⟨S_, .f32⟩
  | .hbm, ⟨73, _⟩ => ⟨S8x256, .f32⟩
  | .hbm, ⟨74, _⟩ => ⟨S8x256, .f32⟩
  | .hbm, ⟨75, _⟩ => ⟨S256x4096, .f32⟩
  | .hbm, ⟨76, _⟩ => ⟨S8x4096, .f32⟩
  | .hbm, ⟨77, _⟩ => ⟨S8x4096, .f32⟩
  | .hbm, ⟨78, _⟩ => ⟨S8x4096, .f32⟩
  | .hbm, ⟨79, _⟩ => ⟨S_, .f32⟩
  | .hbm, ⟨80, _⟩ => ⟨S8x4096, .f32⟩
  | .hbm, ⟨81, _⟩ => ⟨S8x4096, .f32⟩
  | .hbm, ⟨82, _⟩ => ⟨S_, .f32⟩
  | .hbm, ⟨83, _⟩ => ⟨S8x4096, .f32⟩
  | .hbm, ⟨84, _⟩ => ⟨S8x4096, .f32⟩
  | .hbm, ⟨85, _⟩ => ⟨S8x4096x1x1, .f32⟩
  | .hbm, ⟨86, _⟩ => ⟨S8x4096x32x32, .f32⟩
  | .hbm, ⟨87, _⟩ => ⟨S8x4096x32x32, .f32⟩
  | .hbm, ⟨88, _⟩ => ⟨S8x4096x32x32, .f32⟩
  | _, _ => ⟨S8x2048x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call0_cst : Ref sig .tc := ⟨.hbm, 72, rfl⟩
abbrev main_call0_v0 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]

class Facts₀ : Prop where
  shapeCasts_S8x2048x32x32_S8x2048x1024 : S8x2048x32x32.ShapeCasts S8x2048x1024
  reducesTo_S8x2048x1024_S8x2048_d2 : S8x2048x1024.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x1024_0_1_2 : S8x2048x1.BroadcastsInDim S8x2048x1024 (![0, 1, 2] : Fin 3 → Fin S8x2048x1024.rank)
  bcast_S_S8x2048x1 : S_.BroadcastsInDim S8x2048x1 (![] : Fin 0 → Fin S8x2048x1.rank)
  bcast_S_S8x2048x1024 : S_.BroadcastsInDim S8x2048x1024 (![] : Fin 0 → Fin S8x2048x1024.rank)
  shapeCasts_S8x2048x1024_S8x2048x32x32 : S8x2048x1024.ShapeCasts S8x2048x32x32
  concatenates_S8x2048x32x32_S8x2048x32x32_S8x4096x32x32_d1 : Shape.Concatenates [S8x2048x32x32, S8x2048x32x32] S8x4096x32x32 1
  reducesTo_S8x4096x32x32_S8x4096_d2_3 : S8x4096x32x32.ReducesTo [2, 3] S8x4096
  bcast_S_S8x4096 : S_.BroadcastsInDim S8x4096 (![] : Fin 0 → Fin S8x4096.rank)
  transposes_S256x4096_S4096x256_1_0 : S256x4096.Transposes [1, 0] S4096x256
  bcast_S_S8x256 : S_.BroadcastsInDim S8x256 (![] : Fin 0 → Fin S8x256.rank)
  transposes_S4096x256_S256x4096_1_0 : S4096x256.Transposes [1, 0] S256x4096
  bcast_S8x4096_S8x4096x1x1_0_1 : S8x4096.BroadcastsInDim S8x4096x1x1 (![0, 1] : Fin 2 → Fin S8x4096x1x1.rank)
  bcast_S8x4096x1x1_S8x4096x32x32_0_1_2_3 : S8x4096x1x1.BroadcastsInDim S8x4096x32x32 (![0, 1, 2, 3] : Fin 4 → Fin S8x4096x32x32.rank)
  dot_S8x4096_S4096x256_S8x256_1_0_0_1_n_n_wf : DotDims.WF S8x4096 S4096x256 S8x256 [1] [0] [0] [1] [] []
  dot_S8x256_S256x4096_S8x4096_1_0_0_1_n_n_wf : DotDims.WF S8x256 S256x4096 S8x4096 [1] [0] [0] [1] [] []

variable [Facts₀]

def dot_S8x4096_S4096x256_S8x256_1_0_0_1_n_n : DotDims S8x4096 S4096x256 S8x256 where
  lhsContracting := [1]
  rhsContracting := [0]
  lhsNonContracting := [0]
  rhsNonContracting := [1]
  lhsBatch := []
  rhsBatch := []
  wf := dot_S8x4096_S4096x256_S8x256_1_0_0_1_n_n_wf
def dot_S8x256_S256x4096_S8x4096_1_0_0_1_n_n : DotDims S8x256 S256x4096 S8x4096 where
  lhsContracting := [1]
  rhsContracting := [0]
  lhsNonContracting := [0]
  rhsNonContracting := [1]
  lhsBatch := []
  rhsBatch := []
  wf := dot_S8x256_S256x4096_S8x4096_1_0_0_1_n_n_wf

class Facts : Prop extends Facts₀ where

variable [Facts]
-- ==== Proof.RunAll.lean ====
/-
  The kernel program's run with EVERY unscoped buffer named.  The program is four kernel launches among five stretches
  of host operations; folding the host operations and each launch's write-backs from the launch memory gives the contents
  of every buffer at the return (the fold W9).  Every weakly fair execution terminates, without a fault, in a state
  whose unscoped buffers hold exactly that fold.  Both the frame (the four arguments unchanged) and the value of the
  result are read off this one statement.
-/
import proofs.«162184_j68135361184293_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and each unscoped buffer of each core ends
    at the fold of the host operations and the launches' write-backs over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.Whole

end
-- ==== Proof.LibExtReals.lean ====
/-
  Real numbers inside the extended reals: finite sums, the law that moves a division by a nonzero real and a product
  across a double sum, and the two constant words used by the convolution (1 and ε).

  On the extended reals a sum cannot be moved across a product in general (it fails at ±∞). When every entry is a real
  number the computation is one in ℝ, where it is the distributive law and an exchange of the two sums:
      Σ_k ((Σ_{e ∈ E} X(e, k)) / c) · W(k)  =  (Σ_{e ∈ E} Σ_k X(e, k) · W(k)) · (1 / c)     (c a nonzero real).
-/
import Idealize.ShloMosaic.PureOps.Ideal
import Idealize.ShloMosaic.PureOps.Ideal.Laws

noncomputable section

open scoped BigOperators

namespace Cert.Net

open Idealize.ShloMosaic

/-! ## Finite sums of reals -/

/-- The inclusion of ℝ commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ commutes with the larger of two. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A finite sum of ones is a nonnegative real. -/
theorem sum_ones_real {ι : Type} (s : Finset ι) : ∃ r : ℝ, 0 ≤ r ∧ ∑ _j ∈ s, (1 : EReal) = (r : EReal) := by
  classical
  induction s using Finset.induction_on with
  | empty => exact ⟨0, le_refl _, by simp⟩
  | insert a s ha ih =>
    obtain ⟨r, hr, h⟩ := ih
    refine ⟨1 + r, by linarith, ?_⟩
    rw [Finset.sum_insert ha, h, EReal.coe_add, EReal.coe_one]

/-! ## The law -/

/-- In ℝ: scaling each inner sum by d and then summing against W is summing the products first and scaling once. -/
theorem real_law {ι κ : Type} [Fintype ι] [Fintype κ] (L : ι → Prop) [DecidablePred L] (X : ι → κ → ℝ) (W : κ → ℝ) (d : ℝ) :
    ∑ k, ((∑ e, if L e then X e k else 0) * d) * W k = (∑ e, if L e then ∑ k, X e k * W k else 0) * d := by
  simp only [Finset.sum_mul]
  rw [Finset.sum_comm]
  refine Finset.sum_congr rfl fun e _ => ?_
  by_cases h : L e
  · simp only [if_pos h, Finset.sum_mul]
    refine Finset.sum_congr rfl fun k _ => by ring
  · simp [if_neg h]

/-- On the extended reals, for entries that are real numbers and a nonzero real divisor c: dividing the restricted sum
    of each column by c and then summing against W is the restricted sum of the rows' products with W, times 1 / c. -/
theorem ereal_law {ι κ : Type} [Fintype ι] [Fintype κ] (L : ι → Prop) [DecidablePred L] (X : ι → κ → EReal) (W : κ → EReal)
    (hX : ∀ e k, ∃ r : ℝ, X e k = (r : EReal)) (hW : ∀ k, ∃ r : ℝ, W k = (r : EReal)) (c : ℝ) (hc : c ≠ 0) :
    ∑ k, Ideal.div (∑ e, if L e then X e k else 0) (c : EReal) * W k
      = (∑ e, if L e then ∑ k, X e k * W k else 0) * Ideal.div 1 (c : EReal) := by
  choose X' hX' using hX
  choose W' hW' using hW
  have hite : ∀ (p : Prop) [Decidable p] (a : ℝ), (if p then (a : EReal) else 0) = ((if p then a else 0 : ℝ) : EReal) := by
    intro p _ a; split <;> simp
  simp only [Ideal.div_coe hc, one_mul, hX', hW', hite, ← EReal.coe_mul, ← coe_sum]
  exact congrArg _ (real_law L X' W' (1 / c))

/-! ## Two words -/

/-- The word 0x3F800000 denotes 1. -/
theorem one_word : Ideal.ofBits .f32 0x3F800000#32 = 1 := by
  simp [Ideal.ofBits, Ideal.ieee]
  rw [← EReal.coe_mul]
  norm_num

/-- The word 0x2B8CBCCC (ε) denotes a positive real. -/
theorem eps_word : ∃ r : ℝ, 0 < r ∧ Ideal.ofBits .f32 0x2B8CBCCC#32 = (r : EReal) := by
  refine ⟨9223372 * (2 ^ 63)⁻¹, by positivity, ?_⟩
  simp [Ideal.ofBits, Ideal.ieee]

/-! ## Being a real number is kept by the arithmetic -/

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose f' hf' using hf
  exact ⟨∑ i ∈ s, f' i, by rw [coe_sum]; exact Finset.sum_congr rfl fun i _ => hf' i⟩

/-- A real or zero, by cases, is a real. -/
theorem real_ite (p : Prop) [Decidable p] {x : EReal} (hx : ∃ r : ℝ, x = (r : EReal)) :
    ∃ r : ℝ, (if p then x else 0) = (r : EReal) := by
  split
  · exact hx
  · exact ⟨0, EReal.coe_zero.symm⟩

/-- The larger of two reals is a real. -/
theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (coe_max a b).symm⟩

/-- A real divided by a nonzero real is a real. -/
theorem real_div {x : EReal} (hx : ∃ r : ℝ, x = (r : EReal)) {c : ℝ} (hc : c ≠ 0) :
    ∃ r : ℝ, Ideal.div x (c : EReal) = (r : EReal) := by
  obtain ⟨a, rfl⟩ := hx
  exact ⟨a * (1 / c), by rw [Ideal.div_coe hc, EReal.coe_mul]⟩

/-- The square root of a nonnegative real is a nonnegative real. -/
theorem real_sqrt {r : ℝ} (hr : 0 ≤ r) : Ideal.sqrt (r : EReal) = ((Real.sqrt r : ℝ) : EReal) := by
  rw [Ideal.sqrt_coe, if_neg (not_lt.mpr hr)]

end Cert.Net

end
-- ==== Proof.RowMath.lean ====
/-
  The mathematics of the fused block, on the extended reals, one row of 1024 spatial positions at a time.

  For a row x: its maximum (a fold of max from −∞), the shifted exponentials exp(x_j − max x), the softmax
  (each shifted exponential over their sum), and the mean (Σ_j x_j)/1024.  For two rows x1, x2 of the two embeddings
  at one (batch, channel):
      inner1_j = x1_j/1024 + mean(x2)·softmax(x1)_j,      inner2_j = softmax(x2)_j·mean(x1) + x2_j/1024.
  One program forms  x·(inner + 1), the other  x·inner + x.  These agree when x is a real number: for a real a and any
  extended real r,  a·(r + 1) = a·r + a  (checked at r = ±∞ by the sign of a).
  The channel gate is  g = logistic(Σ_r max(Σ_k y_k·w1(r,k), 0)·w2(ch,r)), which lies in [0, 1]; one program forms
  c·(1 + g), the other c·g + c, and these agree for every extended real c because 1 and g are both nonnegative.
-/
import Idealize.ShloMosaic.PureOps.Ideal
import Idealize.ShloMosaic.PureOps.Ideal.Laws
import Idealize.ShloMosaic.Lib.ValueIdx
import proofs.«162184_j68135361184293_1_alg».proof.Proof.LibExtReals

noncomputable section

open scoped BigOperators

namespace Cert.Fuse

open Idealize.ShloMosaic Idealize.ShloMosaic.ValueIdx

/-- A row: the 1024 spatial positions of one (batch, channel). -/
abbrev Row := Fin 1024 → EReal

/-- The four constant words of the programs, as the extended reals they denote. -/
def wNegInf : EReal := Ideal.ofBits .f32 0xFF800000#32
def w1024 : EReal := Ideal.ofBits .f32 0x44800000#32
def wOne : EReal := Ideal.ofBits .f32 0x3F800000#32
def wZero : EReal := Ideal.ofBits .f32 0x00000000#32

theorem wOne_eq : wOne = 1 := Cert.Net.one_word
theorem wZero_eq : wZero = 0 := Ideal.ofBits_zero_f32
theorem wNegInf_eq : wNegInf = ⊥ := by simp [wNegInf, Ideal.ofBits, Ideal.ieee]

/-! ## The two laws -/

/-- A real number distributes over the sum of any extended real and a real. -/
theorem coe_mul_add_coe (a : ℝ) (r : EReal) (b : ℝ) : (a : EReal) * (r + (b : EReal)) = (a : EReal) * r + (a : EReal) * (b : EReal) := by
  induction r using EReal.rec with
  | bot =>
    rw [EReal.bot_add]
    rcases lt_trichotomy a 0 with h | h | h
    · rw [EReal.coe_mul_bot_of_neg h, ← EReal.coe_mul, EReal.top_add_coe]
    · subst h; simp
    · rw [EReal.coe_mul_bot_of_pos h, EReal.bot_add]
  | coe r => rw [← EReal.coe_add, ← EReal.coe_mul, ← EReal.coe_mul, ← EReal.coe_mul, ← EReal.coe_add, mul_add]
  | top =>
    rw [EReal.top_add_coe]
    rcases lt_trichotomy a 0 with h | h | h
    · rw [EReal.coe_mul_top_of_neg h, EReal.bot_add]
    · subst h; simp
    · rw [EReal.coe_mul_top_of_pos h, ← EReal.coe_mul, EReal.top_add_coe]

/-- x·(r + 1) = x·r + x for a real x. -/
theorem real_mul_add_one {x : EReal} (hx : ∃ a : ℝ, x = (a : EReal)) (r : EReal) : x * (r + wOne) = x * r + x := by
  obtain ⟨a, rfl⟩ := hx
  rw [wOne_eq, ← EReal.coe_one, coe_mul_add_coe, EReal.coe_one, mul_one]

/-- The logistic function is nonnegative on the extended reals. -/
theorem logistic_nonneg (x : EReal) : 0 ≤ Ideal.logistic x := by
  induction x using EReal.rec with
  | bot => rw [Ideal.logistic_bot]
  | coe r => rw [Ideal.logistic_coe]; exact EReal.coe_nonneg.mpr (inv_nonneg.mpr (by positivity))
  | top => rw [Ideal.logistic_top]; exact zero_le_one

/-- c·(1 + g) = c·g + c when g is nonnegative. -/
theorem mul_one_add_of_nonneg (c g : EReal) (hg : 0 ≤ g) : c * (wOne + g) = c * g + c := by
  rw [wOne_eq, EReal.left_distrib_of_nonneg zero_le_one hg, mul_one, add_comm]

/-! ## One row -/

def rowMax (x : Row) : EReal := (Finset.univ : Finset (Fin 1024)).fold max wNegInf x
def rowExp (x : Row) : Row := fun j => Ideal.exp (x j - rowMax x)
def softmax (x : Row) : Row := fun j => Ideal.div (rowExp x j) (∑ k, rowExp x k)
def mean (x : Row) : EReal := Ideal.div (∑ k, x k) w1024

def inner1 (x1 x2 : Row) : Row := fun j => Ideal.div (x1 j) w1024 + mean x2 * softmax x1 j
def inner2 (x1 x2 : Row) : Row := fun j => softmax x2 j * mean x1 + Ideal.div (x2 j) w1024

/-- The gated rows in the arrangement x·(inner + 1). -/
def gateK1 (x1 x2 : Row) : Row := fun j => x1 j * (inner1 x1 x2 j + wOne)
def gateK2 (x1 x2 : Row) : Row := fun j => x2 j * (inner2 x1 x2 j + wOne)
/-- The gated rows in the arrangement x·inner + x. -/
def gateR1 (x1 x2 : Row) : Row := fun j => x1 j * inner1 x1 x2 j + x1 j
def gateR2 (x1 x2 : Row) : Row := fun j => x2 j * inner2 x1 x2 j + x2 j

theorem gateK1_eq (x1 x2 : Row) (h : ∀ j, ∃ a : ℝ, x1 j = (a : EReal)) : gateK1 x1 x2 = gateR1 x1 x2 :=
  funext fun j => real_mul_add_one (h j) _
theorem gateK2_eq (x1 x2 : Row) (h : ∀ j, ∃ a : ℝ, x2 j = (a : EReal)) : gateK2 x1 x2 = gateR2 x1 x2 :=
  funext fun j => real_mul_add_one (h j) _

/-! ## The whole arrays -/

/-- Position j of a row as the pair (j / 32, j % 32) of a 32 × 32 image. -/
def hOf (j : Fin 1024) : Fin 32 := ⟨j.val / 32, by have := j.isLt; omega⟩
def wOf (j : Fin 1024) : Fin 32 := ⟨j.val % 32, Nat.mod_lt _ (by norm_num)⟩
def posOf (h w : Fin 32) : Fin 1024 := ⟨h.val * 32 + w.val, by have := h.isLt; have := w.isLt; omega⟩

/-- Row (b, c) of an [8, 2048, 32, 32] array. -/
def row4 (x : (⟨4, ![8, 2048, 32, 32]⟩ : Shape).Idx → EReal) (b : Fin 8) (c : Fin 2048) : Row :=
  fun j => x (ix4 b c (hOf j) (wOf j))

/-- The lower and upper halves of the 4096 channels. -/
def loCh (ch : Fin 4096) (h : ch.val < 2048) : Fin 2048 := ⟨ch.val, h⟩
def hiCh (ch : Fin 4096) (h : ¬ ch.val < 2048) : Fin 2048 := ⟨ch.val - 2048, by have := ch.isLt; omega⟩

variable (x0 x1 : (⟨4, ![8, 2048, 32, 32]⟩ : Shape).Idx → EReal)

/-- The gated row of channel ch: the first embedding's for ch < 2048, the second's above. -/
def embK (b : Fin 8) (ch : Fin 4096) : Row :=
  if h : ch.val < 2048 then gateK1 (row4 x0 b (loCh ch h)) (row4 x1 b (loCh ch h))
  else gateK2 (row4 x0 b (hiCh ch h)) (row4 x1 b (hiCh ch h))
def embR (b : Fin 8) (ch : Fin 4096) : Row :=
  if h : ch.val < 2048 then gateR1 (row4 x0 b (loCh ch h)) (row4 x1 b (loCh ch h))
  else gateR2 (row4 x0 b (hiCh ch h)) (row4 x1 b (hiCh ch h))

theorem embK_eq (h0 : ∀ i, ∃ a : ℝ, x0 i = (a : EReal)) (h1 : ∀ i, ∃ a : ℝ, x1 i = (a : EReal)) : embK x0 x1 = embR x0 x1 := by
  funext b ch
  unfold embK embR
  split
  · exact gateK1_eq _ _ fun j => h0 _
  · exact gateK2_eq _ _ fun j => h1 _

variable (w1 : (⟨2, ![256, 4096]⟩ : Shape).Idx → EReal) (w2 : (⟨2, ![4096, 256]⟩ : Shape).Idx → EReal)

/-- The squeeze-and-excitation gate of the pooled values y. -/
def hidden (y : Fin 8 → Fin 4096 → EReal) (b : Fin 8) (r : Fin 256) : EReal := max (∑ k : Fin 4096, y b k * w1 (ix2 r k)) wZero
def gate (y : Fin 8 → Fin 4096 → EReal) (b : Fin 8) (ch : Fin 4096) : EReal :=
  Ideal.logistic (∑ r : Fin 256, hidden w1 y b r * w2 (ix2 ch r))

/-- The result in the arrangement c·(1 + g). -/
def outK : (⟨4, ![8, 4096, 32, 32]⟩ : Shape).Idx → EReal := fun i =>
  embK x0 x1 (i 0) (i 1) (posOf (i 2) (i 3)) * (wOne + gate w1 w2 (fun b ch => mean (embK x0 x1 b ch)) (i 0) (i 1))
/-- The result in the arrangement c·g + c. -/
def outR : (⟨4, ![8, 4096, 32, 32]⟩ : Shape).Idx → EReal := fun i =>
  embR x0 x1 (i 0) (i 1) (posOf (i 2) (i 3)) * gate w1 w2 (fun b ch => mean (embR x0 x1 b ch)) (i 0) (i 1)
    + embR x0 x1 (i 0) (i 1) (posOf (i 2) (i 3))

theorem outK_eq_outR (h0 : ∀ i, ∃ a : ℝ, x0 i = (a : EReal)) (h1 : ∀ i, ∃ a : ℝ, x1 i = (a : EReal)) :
    outK x0 x1 w1 w2 = outR x0 x1 w1 w2 := by
  funext i
  unfold outK outR
  rw [embK_eq x0 x1 h0 h1]
  exact mul_one_add_of_nonneg _ _ (logistic_nonneg _)

end Cert.Fuse

end
-- ==== Proof.LibLastAxis.lean ====
/-
  Reductions along the LAST axis of a rank-3 array, and the keepdims forms around them, read at an index — generic in
  the three extents.

  For an [A, B, C] array x:
  * a lane reduction by maximum from the word of −∞ is, at (a, b), the fold of max over the C entries x(a, b, ·)
    (`multiReduction_max_last`), and a lane reduction by addition from the zero word is their sum
    (`multiReduction_add_last`);
  * the host's one-operand reduce along axis 2 with a commutative associative body is, at (a, b), the fold of the body
    from the initial value over those entries (`hostReduce_last`);
  * an [A, B] array cast to [A, B, 1] reads at (a, b, u) the operand at (a, b) (`shapeCast_ab_ab1_apply`);
  * an [A, B, 1] array broadcast to [A, B, D] reads at (a, b, d) the operand at (a, b, 0) (`broadcastTo_ab1_abd_apply`).

  Nothing here depends on a program.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

noncomputable section

open scoped BigOperators

namespace Cert.Lib.LastAxis

open Idealize.ShloMosaic Idealize.ShloMosaic.ValueIdx

variable {A B C : Nat}

/-- The index over (a, b) with c inserted on the last axis is (a, b, c). -/
theorem lift_last (h : (⟨3, ![A, B, C]⟩ : Shape).Reduces [2] ⟨2, ![A, B]⟩) (a : Fin A) (b : Fin B) (c : Fin C) :
    h.lift (ix2 a b) c = ix3 a b c :=
  funext fun ax => Fin.ext (by match ax with | ⟨0, _⟩ => rfl | ⟨1, _⟩ => rfl | ⟨2, _⟩ => rfl)

/-- A lane reduction by maximum along the last axis, from the word of −∞: at (a, b) the fold of max over the entries
    x(a, b, ·), started from what that word denotes. -/
theorem multiReduction_max_last (x : FVec Ideal ⟨3, ![A, B, C]⟩ .f32)
    (h : (⟨3, ![A, B, C]⟩ : Shape).Reduces [2] ⟨2, ![A, B]⟩) (hφ : FKind.Formats .f32)
    (hacc : (0xFF800000#32 : BitVec 32) = FKind.maximumf.neutral .f32 hφ) (a : Fin A) (b : Fin B) :
    multiReduction .maximumf [2] ⟨2, ![A, B]⟩ x 0xFF800000#32 h hφ hacc (ix2 a b)
      = (Finset.univ : Finset (Fin C)).fold max (Ideal.ofBits .f32 0xFF800000#32) (fun c => x (ix3 a b c)) := by
  refine (Ideal.multiReduction_maximumf_single x 0xFF800000#32 h hφ hacc (ix2 a b)).trans ?_
  refine congrArg (fun g => (Finset.univ : Finset (Fin C)).fold max (Ideal.ofBits .f32 0xFF800000#32) g) (funext fun c => ?_)
  exact congrArg x (lift_last h a b c)

/-- A lane reduction by addition along the last axis, from the zero word: at (a, b) the sum of the entries x(a, b, ·). -/
theorem multiReduction_add_last (x : FVec Ideal ⟨3, ![A, B, C]⟩ .f32)
    (h : (⟨3, ![A, B, C]⟩ : Shape).Reduces [2] ⟨2, ![A, B]⟩) (hφ : FKind.Formats .f32)
    (hacc : (0x00000000#32 : BitVec 32) = FKind.add.neutral .f32 hφ) (a : Fin A) (b : Fin B) :
    multiReduction .add [2] ⟨2, ![A, B]⟩ x 0x00000000#32 h hφ hacc (ix2 a b) = ∑ c : Fin C, x (ix3 a b c) := by
  refine (Ideal.multiReduction_add_single x 0x00000000#32 h hφ hacc (ix2 a b)).trans ?_
  exact Finset.sum_congr rfl fun c _ => congrArg x (lift_last h a b c)

/-- The host's one-operand reduce along the last axis with a commutative associative body: at (a, b) the fold of the body
    from the initial value over the entries x(a, b, ·). -/
theorem hostReduce_last (f : EReal → EReal → EReal) [Std.Commutative f] [Std.Associative f]
    (h' : (⟨3, ![A, B, C]⟩ : Shape).ReducesTo [2] ⟨2, ![A, B]⟩) (h : (⟨3, ![A, B, C]⟩ : Shape).Reduces [2] ⟨2, ![A, B]⟩)
    (x : (⟨3, ![A, B, C]⟩ : Shape).Idx → EReal) (init : (⟨0, ![]⟩ : Shape).Idx → EReal)
    (hu : 0 < (⟨0, ![]⟩ : Shape).numel) (a : Fin A) (b : Fin B) :
    Host.reduce f x init h' hu (ix2 a b)
      = (Finset.univ : Finset (Fin C)).fold f (init (Shape.Idx.first hu)) (fun c => x (ix3 a b c)) := by
  rw [Host.reduce_eq_fold_single f x init h' h hu (ix2 a b)]
  refine congrArg (fun g => (Finset.univ : Finset (Fin C)).fold f (init (Shape.Idx.first hu)) g) (funext fun c => ?_)
  exact congrArg x (lift_last h a b c)

variable {α : Type}

/-- An [A, B] array cast to [A, B, 1] reads, at (a, b, u), the operand at (a, b): the two indices have one row-major
    position. -/
theorem shapeCast_ab_ab1_apply (x : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ x h (ix3 a b u) = x (ix2 a b) :=
  shapeCast_apply x h _ _ (by
    have hu : u.val = 0 := by omega
    rw [Shape.rowMajor_val_two, Shape.rowMajor_val_three]
    show a.val * B + b.val = (a.val * B + b.val) * 1 + u.val
    omega)

/-- An [A, B, 1] array broadcast to [A, B, D] reads, at (a, b, d), the operand at (a, b, 0). -/
theorem broadcastTo_ab1_abd_apply {D : Nat} (v : (⟨3, ![A, B, 1]⟩ : Shape).Idx → α)
    (h : (⟨3, ![A, B, 1]⟩ : Shape).Broadcasts ⟨3, ![A, B, D]⟩) (a : Fin A) (b : Fin B) (d : Fin D) :
    broadcastTo ⟨3, ![A, B, D]⟩ v h (ix3 a b d) = v (ix3 a b (0 : Fin 1)) := by
  refine broadcastTo_apply v h (ix3 a b d) (ix3 a b (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

end Cert.Lib.LastAxis

end
-- ==== Proof.BlockOps.lean ====
/-
  Blocks [A, B, 1024] of rows, at the ideal values: the kernel's spelling of the per-row quantities, read at an index.

  A per-row quantity v(a, b) kept as a column [A, B, 1] and broadcast along the row reads v(a, b) at every position.
  The lane maximum of a block, kept and broadcast, is the row maximum; the exponentials of the entries less that maximum
  are the row's shifted exponentials; their lane sum, kept and broadcast, is the softmax's denominator; the lane sum of
  a block over 1024 is the row mean.
-/
import Idealize.ShloMosaic.PureOps
import proofs.«162184_j68135361184293_1_alg».proof.Proof.RowMath
import proofs.«162184_j68135361184293_1_alg».proof.Proof.LibLastAxis

noncomputable section

open scoped BigOperators

namespace Cert.Fuse

open Idealize.ShloMosaic Idealize.ShloMosaic.ValueIdx Cert.Lib.LastAxis

variable {A B : Nat}

/-- Row (a, b) of an [A, B, 1024] block. -/
def row3 (X : (⟨3, ![A, B, 1024]⟩ : Shape).Idx → EReal) (a : Fin A) (b : Fin B) : Row := fun j => X (ix3 a b j)

/-- A per-row quantity kept as a column and broadcast along the row. -/
theorem keep_bcast (v : (⟨2, ![A, B]⟩ : Shape).Idx → EReal)
    (hsc : (⟨2, ![A, B]⟩ : Shape).ShapeCasts ⟨3, ![A, B, 1]⟩)
    (hbc : (⟨3, ![A, B, 1]⟩ : Shape).Broadcasts ⟨3, ![A, B, 1024]⟩) (a : Fin A) (b : Fin B) (j : Fin 1024) :
    broadcastTo ⟨3, ![A, B, 1024]⟩ (shapeCast ⟨3, ![A, B, 1]⟩ v hsc) hbc (ix3 a b j) = v (ix2 a b) := by
  rw [broadcastTo_ab1_abd_apply, shapeCast_ab_ab1_apply]

section
variable (X : FVec Ideal ⟨3, ![A, B, 1024]⟩ .f32)
  (hred : (⟨3, ![A, B, 1024]⟩ : Shape).Reduces [2] ⟨2, ![A, B]⟩) (hφ : FKind.Formats .f32)
  (hmax : (0xFF800000#32 : BitVec 32) = FKind.maximumf.neutral .f32 hφ)
  (hadd : (0x00000000#32 : BitVec 32) = FKind.add.neutral .f32 hφ)
  (hsc : (⟨2, ![A, B]⟩ : Shape).ShapeCasts ⟨3, ![A, B, 1]⟩)
  (hbc : (⟨3, ![A, B, 1]⟩ : Shape).Broadcasts ⟨3, ![A, B, 1024]⟩)

/-- The block's entries less their row maximum, exponentiated: the kernel's spelling. -/
def expBlk : FVec Ideal ⟨3, ![A, B, 1024]⟩ .f32 :=
  exp (subf X (broadcastTo ⟨3, ![A, B, 1024]⟩ (shapeCast ⟨3, ![A, B, 1]⟩
    (multiReduction .maximumf [2] ⟨2, ![A, B]⟩ X 0xFF800000#32 hred hφ hmax) hsc) hbc))

theorem expBlk_apply (a : Fin A) (b : Fin B) (j : Fin 1024) :
    expBlk X hred hφ hmax hsc hbc (ix3 a b j) = rowExp (row3 X a b) j := by
  show Ideal.exp (X (ix3 a b j) - broadcastTo ⟨3, ![A, B, 1024]⟩ (shapeCast ⟨3, ![A, B, 1]⟩
    (multiReduction .maximumf [2] ⟨2, ![A, B]⟩ X 0xFF800000#32 hred hφ hmax) hsc) hbc (ix3 a b j)) = _
  rw [keep_bcast, multiReduction_max_last]
  rfl

/-- The block's softmax along the rows: the kernel's spelling. -/
def smBlk : FVec Ideal ⟨3, ![A, B, 1024]⟩ .f32 :=
  divf (expBlk X hred hφ hmax hsc hbc) (broadcastTo ⟨3, ![A, B, 1024]⟩ (shapeCast ⟨3, ![A, B, 1]⟩
    (multiReduction .add [2] ⟨2, ![A, B]⟩ (expBlk X hred hφ hmax hsc hbc) 0x00000000#32 hred hφ hadd) hsc) hbc)

theorem smBlk_apply (a : Fin A) (b : Fin B) (j : Fin 1024) :
    smBlk X hred hφ hmax hadd hsc hbc (ix3 a b j) = softmax (row3 X a b) j := by
  show Ideal.div (expBlk X hred hφ hmax hsc hbc (ix3 a b j)) (broadcastTo ⟨3, ![A, B, 1024]⟩ (shapeCast ⟨3, ![A, B, 1]⟩
    (multiReduction .add [2] ⟨2, ![A, B]⟩ (expBlk X hred hφ hmax hsc hbc) 0x00000000#32 hred hφ hadd) hsc) hbc (ix3 a b j)) = _
  rw [keep_bcast, multiReduction_add_last, expBlk_apply]
  exact congrArg (Ideal.div (rowExp (row3 X a b) j)) (Finset.sum_congr rfl fun k _ => expBlk_apply X hred hφ hmax hsc hbc a b k)

/-- The block's row means: the kernel's spelling. -/
def meanBlk : FVec Ideal ⟨2, ![A, B]⟩ .f32 :=
  divf (multiReduction .add [2] ⟨2, ![A, B]⟩ X 0x00000000#32 hred hφ hadd) (broadcast ⟨2, ![A, B]⟩ (Scalar.ofBits .f32 0x44800000#32))

theorem meanBlk_apply (a : Fin A) (b : Fin B) : meanBlk X hred hφ hadd (ix2 a b) = mean (row3 X a b) := by
  show Ideal.div (multiReduction .add [2] ⟨2, ![A, B]⟩ X 0x00000000#32 hred hφ hadd (ix2 a b)) w1024 = _
  rw [multiReduction_add_last]
  exact congrArg (fun s => Ideal.div s w1024) (Finset.sum_congr rfl fun k _ => rfl)

end

end Cert.Fuse

end
-- ==== Proof.Pay0.lean ====
/-
  The first kernel's stored values at the ideal values, read at an index.  Its block holds 64 channels of all 8 batches:
  x0, x1 are the [8, 64, 1024] blocks of the two embeddings.  It stores, transposed to [64, 8]: the row means of x0 and of
  x1, and the means of the gated rows x0·(inner1 + 1) and x1·(inner2 + 1).
-/
import proofs.«162184_j68135361184293_1_alg».proof.Proof.Gen.KernelIdeal.Skeleton
import proofs.«162184_j68135361184293_1_alg».proof.Proof.BlockOps
import Idealize.ShloMosaic.Lib.Pipeline.Value

noncomputable section

open scoped BigOperators

namespace Cert.KernelIdeal.Val

open Cert.KernelIdeal Cert.KernelIdeal.Gen Cert.Fuse
open Idealize.ShloMosaic Idealize.ShloMosaic.ValueIdx

variable (x0 x1 : Vec Ideal S8x64x1024 .f32)

theorem pay5_eq : k0_pay5 (F := Ideal) x0 = x0 := shapeCast_self x0 _
theorem pay6_eq : k0_pay6 (F := Ideal) x1 = x1 := shapeCast_self x1 _

/-- The [8, 64] → [64, 8] transposition read at an index. -/
theorem transposeT (v : FVec Ideal S8x64 .f32) (p : Fin 64) (q : Fin 8) :
    transpose S64x8 [1, 0] v transposes_S8x64_p1_0_S64x8 (ix2 p q) = v (ix2 q p) :=
  transpose_apply [1, 0] v transposes_S8x64_p1_0_S64x8 (ix2 p q) (ix2 q p)
    (fun b => by match b with | ⟨0, _⟩ => rfl | ⟨1, _⟩ => rfl)

theorem pay7_apply (b : Fin 8) (c : Fin 64) : k0_pay7 (F := Ideal) x0 (ix2 b c) = mean (row3 x0 b c) := by
  show meanBlk (k0_pay5 (F := Ideal) x0) reduces_S8x64x1024_S8x64 (.inl rfl) rfl (ix2 b c) = _
  rw [pay5_eq]
  exact meanBlk_apply x0 _ _ _ b c

theorem pay8_apply (b : Fin 8) (c : Fin 64) : k0_pay8 (F := Ideal) x1 (ix2 b c) = mean (row3 x1 b c) := by
  show meanBlk (k0_pay6 (F := Ideal) x1) reduces_S8x64x1024_S8x64 (.inl rfl) rfl (ix2 b c) = _
  rw [pay6_eq]
  exact meanBlk_apply x1 _ _ _ b c

theorem pay10_apply (b : Fin 8) (c : Fin 64) (j : Fin 1024) :
    k0_pay10 (F := Ideal) x0 x1 (ix3 b c j) = inner1 (row3 x0 b c) (row3 x1 b c) j + wOne := by
  show (Ideal.div (k0_pay5 (F := Ideal) x0 (ix3 b c j)) w1024
      + broadcastTo S8x64x1024 (shapeCast S8x64x1 (k0_pay8 (F := Ideal) x1) shapeCasts_S8x64_S8x64x1) broadcasts_S8x64x1_S8x64x1024 (ix3 b c j)
        * smBlk (k0_pay5 (F := Ideal) x0) reduces_S8x64x1024_S8x64 (.inl rfl) rfl rfl shapeCasts_S8x64_S8x64x1 broadcasts_S8x64x1_S8x64x1024 (ix3 b c j)) + wOne = _
  rw [pay5_eq, keep_bcast, pay8_apply]
  exact congrArg (fun s => Ideal.div (x0 (ix3 b c j)) w1024 + mean (row3 x1 b c) * s + wOne) (smBlk_apply x0 _ _ _ _ _ _ b c j)

theorem pay9_apply (b : Fin 8) (c : Fin 64) (j : Fin 1024) :
    k0_pay9 (F := Ideal) x0 x1 (ix3 b c j) = inner2 (row3 x0 b c) (row3 x1 b c) j := by
  show smBlk (k0_pay6 (F := Ideal) x1) reduces_S8x64x1024_S8x64 (.inl rfl) rfl rfl shapeCasts_S8x64_S8x64x1 broadcasts_S8x64x1_S8x64x1024 (ix3 b c j)
        * broadcastTo S8x64x1024 (shapeCast S8x64x1 (k0_pay7 (F := Ideal) x0) shapeCasts_S8x64_S8x64x1) broadcasts_S8x64x1_S8x64x1024 (ix3 b c j)
      + Ideal.div (k0_pay6 (F := Ideal) x1 (ix3 b c j)) w1024 = _
  rw [pay6_eq, keep_bcast, pay7_apply]
  exact congrArg (fun s => s * mean (row3 x0 b c) + Ideal.div (x1 (ix3 b c j)) w1024) (smBlk_apply x1 _ _ _ _ _ _ b c j)

/-- The four stored values, at (channel p of the block, batch q). -/
theorem stored_mean1 (p : Fin 64) (q : Fin 8) : k0_pay1 (F := Ideal) (k0_pay7 x0) (ix2 p q) = mean (row3 x0 q p) :=
  (transposeT _ p q).trans (pay7_apply x0 q p)

theorem stored_mean2 (p : Fin 64) (q : Fin 8) : k0_pay2 (F := Ideal) (k0_pay8 x1) (ix2 p q) = mean (row3 x1 q p) :=
  (transposeT _ p q).trans (pay8_apply x1 q p)

theorem stored_pool1 (p : Fin 64) (q : Fin 8) :
    k0_pay3 (F := Ideal) (k0_pay5 x0) (k0_pay10 x0 x1) (ix2 p q) = mean (gateK1 (row3 x0 q p) (row3 x1 q p)) := by
  refine (transposeT (meanBlk (mulf (F := Ideal) (k0_pay5 (F := Ideal) x0) (k0_pay10 (F := Ideal) x0 x1)) reduces_S8x64x1024_S8x64 (.inl rfl) rfl) p q).trans ?_
  refine (meanBlk_apply _ _ _ _ q p).trans ?_
  refine congrArg mean (funext fun j => ?_)
  show k0_pay5 (F := Ideal) x0 (ix3 q p j) * k0_pay10 (F := Ideal) x0 x1 (ix3 q p j) = _
  rw [pay5_eq, pay10_apply]
  rfl

theorem stored_pool2 (p : Fin 64) (q : Fin 8) :
    k0_pay4 (F := Ideal) (k0_pay6 x1) (k0_pay9 x0 x1) (ix2 p q) = mean (gateK2 (row3 x0 q p) (row3 x1 q p)) := by
  refine (transposeT (meanBlk (mulf (F := Ideal) (k0_pay6 (F := Ideal) x1) (addf (F := Ideal) (k0_pay9 (F := Ideal) x0 x1) (broadcast S8x64x1024 (Scalar.ofBits (F := Ideal) .f32 0x3F800000#32))))
    reduces_S8x64x1024_S8x64 (.inl rfl) rfl) p q).trans ?_
  refine (meanBlk_apply _ _ _ _ q p).trans ?_
  refine congrArg mean (funext fun j => ?_)
  show k0_pay6 (F := Ideal) x1 (ix3 q p j) * (k0_pay9 (F := Ideal) x0 x1 (ix3 q p j) + wOne) = _
  rw [pay6_eq, pay9_apply]
  rfl

end Cert.KernelIdeal.Val

end
-- ==== Proof.Reg0.lean ====
/-
  The first launch, from blocks to arrays.  Its 32 grid points each take 64 consecutive channels of the two embeddings
  (all 8 batches) and write the 64 rows of four [2048, 8] tables: point t covers rows 64t … 64t+63, so the 32 blocks tile each
  table, and every table ends as ONE function of the two embedding arrays E1, E2 [8, 2048, 1024] as the launch finds them:
  the row means of E1 and of E2 and the means of the gated rows, each at (channel, batch).
-/
import proofs.«162184_j68135361184293_1_alg».proof.Proof.Gen.KernelIdeal.Frame
import proofs.«162184_j68135361184293_1_alg».proof.Proof.Pay0
import Idealize.ShloMosaic.Lib.Pipeline.Value

noncomputable section

open scoped BigOperators

namespace Cert.KernelIdeal.Val

open Cert.KernelIdeal Cert.KernelIdeal.Gen Cert.Fuse
open Idealize.ShloMosaic Idealize.ShloMosaic.TcCoe Idealize.SL.Sem Idealize.ShloMosaic.ValueIdx
open Idealize.ShloMosaic.Pipeline (Dat Cfg Window)

theorem z2_0 : (![0, 0] : Fin 2 → Nat) = fun _ => 0 := funext fun a => by fin_cases a <;> rfl
theorem z3_0 : (![0, 0, 0] : Fin 3 → Nat) = fun _ => 0 := funext fun a => by fin_cases a <;> rfl

/-- The four tables as functions of the embeddings, at (channel, batch). -/
def meanT (E : (⟨3, ![8, 2048, 1024]⟩ : Shape).Idx → EReal) : (⟨2, ![2048, 8]⟩ : Shape).Idx → EReal :=
  fun i => mean (row3 E (i 1) (i 0))
def poolT1 (E1 E2 : (⟨3, ![8, 2048, 1024]⟩ : Shape).Idx → EReal) : (⟨2, ![2048, 8]⟩ : Shape).Idx → EReal :=
  fun i => mean (gateK1 (row3 E1 (i 1) (i 0)) (row3 E2 (i 1) (i 0)))
def poolT2 (E1 E2 : (⟨3, ![8, 2048, 1024]⟩ : Shape).Idx → EReal) : (⟨2, ![2048, 8]⟩ : Shape).Idx → EReal :=
  fun i => mean (gateK2 (row3 E1 (i 1) (i 0)) (row3 E2 (i 1) (i 0)))

/-- The printed index maps over the grid: an embedding's block at point t is channels 64t…, a table's block rows 64t…. -/
theorem idx0 : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ t.val < 32 :=
  (by decide +kernel : ∀ t : Fin grid0.N, _)
theorem onto0 : ∀ q : Fin 32, ∃ t : Fin cfg0.N, t.val = q.val :=
  (by decide +kernel : ∀ q : Fin 32, ∃ t : Fin grid0.N, t.val = q.val)

variable (V : (c : Dev nD) → (b : Ref sig .tc) → Buf (Elt Ideal) ((c : Thread nD τ).loc b))

/-- Row (q, p) of the first embedding's block at point t is row (q, 64t + p) of the array. -/
theorem iblk0_0_row (c : Dev nD) (t : Fin cfg0.N) (q : Fin 8) (p : Fin 64) (hp : t.val * 64 + p.val < 2048) :
    row3 (iblk0 V c 0 t) q p = row3 (V c main_v0) q ⟨t.val * 64 + p.val, hp⟩ := by
  obtain ⟨e0, e1, e2, -⟩ := idx0 t
  funext j
  show V c main_v0 (((cfg0.win 0).blk t).view.emb (ix3 q p j)) = V c main_v0 (ix3 q ⟨t.val * 64 + p.val, hp⟩ j)
  refine congrArg (V c main_v0) (funext fun a => Fin.ext ?_)
  match a with
  | ⟨0, _⟩ => show win0_0.index t (0 : Fin 3) * 8 + 1 * q.val = q.val; omega
  | ⟨1, _⟩ => show win0_0.index t (1 : Fin 3) * 64 + 1 * p.val = t.val * 64 + p.val; omega
  | ⟨2, _⟩ => show win0_0.index t (2 : Fin 3) * 1024 + 1 * j.val = j.val; omega

theorem iblk0_1_row (c : Dev nD) (t : Fin cfg0.N) (q : Fin 8) (p : Fin 64) (hp : t.val * 64 + p.val < 2048) :
    row3 (iblk0 V c 1 t) q p = row3 (V c main_v1) q ⟨t.val * 64 + p.val, hp⟩ := by
  obtain ⟨-, -, -, e0, e1, e2, -⟩ := idx0 t
  funext j
  show V c main_v1 (((cfg0.win 1).blk t).view.emb (ix3 q p j)) = V c main_v1 (ix3 q ⟨t.val * 64 + p.val, hp⟩ j)
  refine congrArg (V c main_v1) (funext fun a => Fin.ext ?_)
  match a with
  | ⟨0, _⟩ => show win0_1.index t (0 : Fin 3) * 8 + 1 * q.val = q.val; omega
  | ⟨1, _⟩ => show win0_1.index t (1 : Fin 3) * 64 + 1 * p.val = t.val * 64 + p.val; omega
  | ⟨2, _⟩ => show win0_1.index t (2 : Fin 3) * 1024 + 1 * j.val = j.val; omega

/-- What point t writes back to window 2 is block t of the whole array. -/
theorem flushed0_2 (c : Dev nD) (t : Fin cfg0.N) :
    (dat0 V c).flushed 2 t = ((cfg0.win 2).blk t).view.read (Elt Ideal) (meanT (V c main_v0)) := by
  show (cfg0.win 2).cut (grid0.coords t) ((dat0 V c).after 2 t) = _
  rw [after0_2]
  unfold out0_2
  rw [View.canon_unit_zero z2_0]
  simp only [View.ld_unit_zero (S := S8x64x1024) z3_0]
  obtain ⟨-, -, -, -, -, -, f2a, f2b, f3a, f3b, f4a, f4b, f5a, f5b, ht⟩ := idx0 t
  funext y
  obtain ⟨p, q, rfl⟩ : ∃ (p : Fin 64) (q : Fin 8), y = ix2 p q := ⟨y 0, y 1, eq_ix2 y⟩
  have hp : t.val * 64 + p.val < 2048 := by have := p.isLt; omega
  have hemb : ((cfg0.win 2).blk t).view.emb (ix2 p q) = ix2 (⟨t.val * 64 + p.val, hp⟩ : Fin 2048) q :=
    funext fun a => Fin.ext (by
      match a with
      | ⟨0, _⟩ => show win0_2.index t (0 : Fin 2) * 64 + 1 * p.val = t.val * 64 + p.val; omega
      | ⟨1, _⟩ => show win0_2.index t (1 : Fin 2) * 8 + 1 * q.val = q.val; omega)
  show k0_pay1 (k0_pay7 (iblk0 V c 0 t)) (ix2 p q) = (meanT (V c main_v0)) (((cfg0.win 2).blk t).view.emb (ix2 p q))
  rw [hemb]
  refine (stored_mean1 (iblk0 V c 0 t) p q).trans ?_
  exact congrArg mean (iblk0_0_row V c t q p hp)

theorem mem_blk0_2 (t : Fin cfg0.N) (i : S2048x8.Idx) :
    i ∈ ((cfg0.win 2).blk t).view.set ↔ ∀ a : Fin 2, win0_2.index t a * S64x8.size a ≤ (i a).val ∧ (i a).val < win0_2.index t a * S64x8.size a + S64x8.size a := by
  show i ∈ ((View.whole main_v2_0).slice (win0_2.rect t)).set ↔ _
  rw [View.set_slice_whole, Rect.mem_set_unit]
  exact Iff.rfl

/-- The array of window 2 after the launch. -/
theorem final0_2 (c : Dev nD) : (dat0 V c).arrAt 2 cfg0.N = meanT (V c main_v0) :=
  (dat0 V c).arrAt_eq_of_cover 2 _ (fun t _ => flushed0_2 V c t) (fun i => by
    have hi0 : (i 0).val < 2048 := (i 0).isLt
    have hi1 : (i 1).val < 8 := (i 1).isLt
    obtain ⟨t, ht⟩ := onto0 ⟨(i 0).val / 64, by omega⟩
    have ht' : t.val = (i 0).val / 64 := ht
    obtain ⟨-, -, -, -, -, -, f2a, f2b, f3a, f3b, f4a, f4b, f5a, f5b, -⟩ := idx0 t
    refine ⟨t, flush0_2 t, ?_⟩
    rw [mem_blk0_2]
    intro a
    match a with
    | ⟨0, _⟩ => show win0_2.index t (0 : Fin 2) * 64 ≤ (i 0).val ∧ (i 0).val < win0_2.index t (0 : Fin 2) * 64 + 64; omega
    | ⟨1, _⟩ => show win0_2.index t (1 : Fin 2) * 8 ≤ (i 1).val ∧ (i 1).val < win0_2.index t (1 : Fin 2) * 8 + 8; omega)

/-- What point t writes back to window 3 is block t of the whole array. -/
theorem flushed0_3 (c : Dev nD) (t : Fin cfg0.N) :
    (dat0 V c).flushed 3 t = ((cfg0.win 3).blk t).view.read (Elt Ideal) (meanT (V c main_v1)) := by
  show (cfg0.win 3).cut (grid0.coords t) ((dat0 V c).after 3 t) = _
  rw [after0_3]
  unfold out0_3
  rw [View.canon_unit_zero z2_0]
  simp only [View.ld_unit_zero (S := S8x64x1024) z3_0]
  obtain ⟨-, -, -, -, -, -, f2a, f2b, f3a, f3b, f4a, f4b, f5a, f5b, ht⟩ := idx0 t
  funext y
  obtain ⟨p, q, rfl⟩ : ∃ (p : Fin 64) (q : Fin 8), y = ix2 p q := ⟨y 0, y 1, eq_ix2 y⟩
  have hp : t.val * 64 + p.val < 2048 := by have := p.isLt; omega
  have hemb : ((cfg0.win 3).blk t).view.emb (ix2 p q) = ix2 (⟨t.val * 64 + p.val, hp⟩ : Fin 2048) q :=
    funext fun a => Fin.ext (by
      match a with
      | ⟨0, _⟩ => show win0_3.index t (0 : Fin 2) * 64 + 1 * p.val = t.val * 64 + p.val; omega
      | ⟨1, _⟩ => show win0_3.index t (1 : Fin 2) * 8 + 1 * q.val = q.val; omega)
  show k0_pay2 (k0_pay8 (iblk0 V c 1 t)) (ix2 p q) = (meanT (V c main_v1)) (((cfg0.win 3).blk t).view.emb (ix2 p q))
  rw [hemb]
  refine (stored_mean2 (iblk0 V c 1 t) p q).trans ?_
  exact congrArg mean (iblk0_1_row V c t q p hp)

theorem mem_blk0_3 (t : Fin cfg0.N) (i : S2048x8.Idx) :
    i ∈ ((cfg0.win 3).blk t).view.set ↔ ∀ a : Fin 2, win0_3.index t a * S64x8.size a ≤ (i a).val ∧ (i a).val < win0_3.index t a * S64x8.size a + S64x8.size a := by
  show i ∈ ((View.whole main_v2_1).slice (win0_3.rect t)).set ↔ _
  rw [View.set_slice_whole, Rect.mem_set_unit]
  exact Iff.rfl

/-- The array of window 3 after the launch. -/
theorem final0_3 (c : Dev nD) : (dat0 V c).arrAt 3 cfg0.N = meanT (V c main_v1) :=
  (dat0 V c).arrAt_eq_of_cover 3 _ (fun t _ => flushed0_3 V c t) (fun i => by
    have hi0 : (i 0).val < 2048 := (i 0).isLt
    have hi1 : (i 1).val < 8 := (i 1).isLt
    obtain ⟨t, ht⟩ := onto0 ⟨(i 0).val / 64, by omega⟩
    have ht' : t.val = (i 0).val / 64 := ht
    obtain ⟨-, -, -, -, -, -, f2a, f2b, f3a, f3b, f4a, f4b, f5a, f5b, -⟩ := idx0 t
    refine ⟨t, flush0_3 t, ?_⟩
    rw [mem_blk0_3]
    intro a
    match a with
    | ⟨0, _⟩ => show win0_3.index t (0 : Fin 2) * 64 ≤ (i 0).val ∧ (i 0).val < win0_3.index t (0 : Fin 2) * 64 + 64; omega
    | ⟨1, _⟩ => show win0_3.index t (1 : Fin 2) * 8 ≤ (i 1).val ∧ (i 1).val < win0_3.index t (1 : Fin 2) * 8 + 8; omega)

/-- What point t writes back to window 4 is block t of the whole array. -/
theorem flushed0_4 (c : Dev nD) (t : Fin cfg0.N) :
    (dat0 V c).flushed 4 t = ((cfg0.win 4).blk t).view.read (Elt Ideal) (poolT1 (V c main_v0) (V c main_v1)) := by
  show (cfg0.win 4).cut (grid0.coords t) ((dat0 V c).after 4 t) = _
  rw [after0_4]
  unfold out0_4
  rw [View.canon_unit_zero z2_0]
  simp only [View.ld_unit_zero (S := S8x64x1024) z3_0]
  obtain ⟨-, -, -, -, -, -, f2a, f2b, f3a, f3b, f4a, f4b, f5a, f5b, ht⟩ := idx0 t
  funext y
  obtain ⟨p, q, rfl⟩ : ∃ (p : Fin 64) (q : Fin 8), y = ix2 p q := ⟨y 0, y 1, eq_ix2 y⟩
  have hp : t.val * 64 + p.val < 2048 := by have := p.isLt; omega
  have hemb : ((cfg0.win 4).blk t).view.emb (ix2 p q) = ix2 (⟨t.val * 64 + p.val, hp⟩ : Fin 2048) q :=
    funext fun a => Fin.ext (by
      match a with
      | ⟨0, _⟩ => show win0_4.index t (0 : Fin 2) * 64 + 1 * p.val = t.val * 64 + p.val; omega
      | ⟨1, _⟩ => show win0_4.index t (1 : Fin 2) * 8 + 1 * q.val = q.val; omega)
  show k0_pay3 (k0_pay5 (iblk0 V c 0 t)) (k0_pay10 (iblk0 V c 0 t) (iblk0 V c 1 t)) (ix2 p q) = (poolT1 (V c main_v0) (V c main_v1)) (((cfg0.win 4).blk t).view.emb (ix2 p q))
  rw [hemb]
  refine (stored_pool1 (iblk0 V c 0 t) (iblk0 V c 1 t) p q).trans ?_
  exact congrArg₂ (fun a b => mean (gateK1 a b)) (iblk0_0_row V c t q p hp) (iblk0_1_row V c t q p hp)

theorem mem_blk0_4 (t : Fin cfg0.N) (i : S2048x8.Idx) :
    i ∈ ((cfg0.win 4).blk t).view.set ↔ ∀ a : Fin 2, win0_4.index t a * S64x8.size a ≤ (i a).val ∧ (i a).val < win0_4.index t a * S64x8.size a + S64x8.size a := by
  show i ∈ ((View.whole main_v2_2).slice (win0_4.rect t)).set ↔ _
  rw [View.set_slice_whole, Rect.mem_set_unit]
  exact Iff.rfl

/-- The array of window 4 after the launch. -/
theorem final0_4 (c : Dev nD) : (dat0 V c).arrAt 4 cfg0.N = poolT1 (V c main_v0) (V c main_v1) :=
  (dat0 V c).arrAt_eq_of_cover 4 _ (fun t _ => flushed0_4 V c t) (fun i => by
    have hi0 : (i 0).val < 2048 := (i 0).isLt
    have hi1 : (i 1).val < 8 := (i 1).isLt
    obtain ⟨t, ht⟩ := onto0 ⟨(i 0).val / 64, by omega⟩
    have ht' : t.val = (i 0).val / 64 := ht
    obtain ⟨-, -, -, -, -, -, f2a, f2b, f3a, f3b, f4a, f4b, f5a, f5b, -⟩ := idx0 t
    refine ⟨t, flush0_4 t, ?_⟩
    rw [mem_blk0_4]
    intro a
    match a with
    | ⟨0, _⟩ => show win0_4.index t (0 : Fin 2) * 64 ≤ (i 0).val ∧ (i 0).val < win0_4.index t (0 : Fin 2) * 64 + 64; omega
    | ⟨1, _⟩ => show win0_4.index t (1 : Fin 2) * 8 ≤ (i 1).val ∧ (i 1).val < win0_4.index t (1 : Fin 2) * 8 + 8; omega)

/-- What point t writes back to window 5 is block t of the whole array. -/
theorem flushed0_5 (c : Dev nD) (t : Fin cfg0.N) :
    (dat0 V c).flushed 5 t = ((cfg0.win 5).blk t).view.read (Elt Ideal) (poolT2 (V c main_v0) (V c main_v1)) := by
  show (cfg0.win 5).cut (grid0.coords t) ((dat0 V c).after 5 t) = _
  rw [after0_5]
  unfold out0_5
  rw [View.canon_unit_zero z2_0]
  simp only [View.ld_unit_zero (S := S8x64x1024) z3_0]
  obtain ⟨-, -, -, -, -, -, f2a, f2b, f3a, f3b, f4a, f4b, f5a, f5b, ht⟩ := idx0 t
  funext y
  obtain ⟨p, q, rfl⟩ : ∃ (p : Fin 64) (q : Fin 8), y = ix2 p q := ⟨y 0, y 1, eq_ix2 y⟩
  have hp : t.val * 64 + p.val < 2048 := by have := p.isLt; omega
  have hemb : ((cfg0.win 5).blk t).view.emb (ix2 p q) = ix2 (⟨t.val * 64 + p.val, hp⟩ : Fin 2048) q :=
    funext fun a => Fin.ext (by
      match a with
      | ⟨0, _⟩ => show win0_5.index t (0 : Fin 2) * 64 + 1 * p.val = t.val * 64 + p.val; omega
      | ⟨1, _⟩ => show win0_5.index t (1 : Fin 2) * 8 + 1 * q.val = q.val; omega)
  show k0_pay4 (k0_pay6 (iblk0 V c 1 t)) (k0_pay9 (iblk0 V c 0 t) (iblk0 V c 1 t)) (ix2 p q) = (poolT2 (V c main_v0) (V c main_v1)) (((cfg0.win 5).blk t).view.emb (ix2 p q))
  rw [hemb]
  refine (stored_pool2 (iblk0 V c 0 t) (iblk0 V c 1 t) p q).trans ?_
  exact congrArg₂ (fun a b => mean (gateK2 a b)) (iblk0_0_row V c t q p hp) (iblk0_1_row V c t q p hp)

theorem mem_blk0_5 (t : Fin cfg0.N) (i : S2048x8.Idx) :
    i ∈ ((cfg0.win 5).blk t).view.set ↔ ∀ a : Fin 2, win0_5.index t a * S64x8.size a ≤ (i a).val ∧ (i a).val < win0_5.index t a * S64x8.size a + S64x8.size a := by
  show i ∈ ((View.whole main_v2_3).slice (win0_5.rect t)).set ↔ _
  rw [View.set_slice_whole, Rect.mem_set_unit]
  exact Iff.rfl

/-- The array of window 5 after the launch. -/
theorem final0_5 (c : Dev nD) : (dat0 V c).arrAt 5 cfg0.N = poolT2 (V c main_v0) (V c main_v1) :=
  (dat0 V c).arrAt_eq_of_cover 5 _ (fun t _ => flushed0_5 V c t) (fun i => by
    have hi0 : (i 0).val < 2048 := (i 0).isLt
    have hi1 : (i 1).val < 8 := (i 1).isLt
    obtain ⟨t, ht⟩ := onto0 ⟨(i 0).val / 64, by omega⟩
    have ht' : t.val = (i 0).val / 64 := ht
    obtain ⟨-, -, -, -, -, -, f2a, f2b, f3a, f3b, f4a, f4b, f5a, f5b, -⟩ := idx0 t
    refine ⟨t, flush0_5 t, ?_⟩
    rw [mem_blk0_5]
    intro a
    match a with
    | ⟨0, _⟩ => show win0_5.index t (0 : Fin 2) * 64 ≤ (i 0).val ∧ (i 0).val < win0_5.index t (0 : Fin 2) * 64 + 64; omega
    | ⟨1, _⟩ => show win0_5.index t (1 : Fin 2) * 8 ≤ (i 1).val ∧ (i 1).val < win0_5.index t (1 : Fin 2) * 8 + 8; omega)

end Cert.KernelIdeal.Val

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.Pay1.lean ====
/-
  The second kernel's stored value at the ideal values, read at an index: from the pooled values y [8, 4096] and the two
  weight matrices, logistic(Σ_r max(Σ_k y(b,k)·w1(r,k), 0)·w2(ch,r)).  The changes of format are the identity, each
  transposed operand is read at the swapped index, and each matrix product into a zero accumulator is the plain sum.
-/
import proofs.«162184_j68135361184293_1_alg».proof.Proof.Gen.KernelIdeal.Skeleton
import proofs.«162184_j68135361184293_1_alg».proof.Proof.RowMath
import proofs.«162184_j68135361184293_1_alg».proof.Proof.LibPlainDot
import Idealize.ShloMosaic.Lib.Pipeline.Value

noncomputable section

open scoped BigOperators

namespace Cert.KernelIdeal.Val

open Cert.KernelIdeal Cert.KernelIdeal.Gen Cert.Fuse Cert.Lib.PlainDot
open Idealize.ShloMosaic Idealize.ShloMosaic.ValueIdx

theorem dot1_plain : dot_S8x4096_S4096x256_S8x256_1_0_0_1_n_n = DotDims.plain 8 4096 256 := eq_plain _ rfl rfl rfl rfl rfl rfl
theorem dot2_plain : dot_S8x256_S256x4096_S8x4096_1_0_0_1_n_n = DotDims.plain 8 256 4096 := eq_plain _ rfl rfl rfl rfl rfl rfl

variable (y : Vec Ideal S8x4096 .f32) (w1 : Vec Ideal S256x4096 .f32) (w2 : Vec Ideal S4096x256 .f32)

theorem mm1 (l : FVec Ideal S8x4096 .bf16) (r : FVec Ideal S4096x256 .bf16) (b : Fin 8) (q : Fin 256) :
    matmul (F := Ideal) dot_S8x4096_S4096x256_S8x256_1_0_0_1_n_n none l r (constant (F := Ideal) S8x256 .f32 0x00000000#32) (ix2 b q)
      = ∑ k : Fin 4096, l (ix2 b k) * r (ix2 k q) := by
  rw [dot1_plain]
  exact matmul_zero_plain_apply none l r (ix2 b q)

theorem mm2 (l : FVec Ideal S8x256 .bf16) (r : FVec Ideal S256x4096 .bf16) (b : Fin 8) (ch : Fin 4096) :
    matmul (F := Ideal) dot_S8x256_S256x4096_S8x4096_1_0_0_1_n_n none l r (constant (F := Ideal) S8x4096 .f32 0x00000000#32) (ix2 b ch)
      = ∑ q : Fin 256, l (ix2 b q) * r (ix2 q ch) := by
  rw [dot2_plain]
  exact matmul_zero_plain_apply none l r (ix2 b ch)

theorem pay1_apply (b : Fin 8) (ch : Fin 4096) :
    k1_pay1 (F := Ideal) y w1 w2 (ix2 b ch) = gate w1 w2 (fun b k => y (ix2 b k)) b ch := by
  have key : ∀ (hid : FVec Ideal S8x256 .bf16) (w2t : FVec Ideal S256x4096 .bf16),
      logistic (F := Ideal) (matmul (F := Ideal) dot_S8x256_S256x4096_S8x4096_1_0_0_1_n_n none hid w2t (constant (F := Ideal) S8x4096 .f32 0x00000000#32)) (ix2 b ch)
        = Ideal.logistic (∑ q : Fin 256, hid (ix2 b q) * w2t (ix2 q ch)) := fun hid w2t =>
    congrArg Ideal.logistic (mm2 hid w2t b ch)
  refine (key _ _).trans ?_
  unfold gate
  refine congrArg Ideal.logistic (Finset.sum_congr rfl fun q _ => ?_)
  refine congrArg₂ (· * ·) ?_ ?_
  · show max (matmul (F := Ideal) dot_S8x4096_S4096x256_S8x256_1_0_0_1_n_n none
        (truncf (F := Ideal) .bf16 (shapeCast S8x4096 y shapeCasts_S8x4096_S8x4096) bitsLt_bf16_f32)
        (transpose S4096x256 [1, 0] (truncf (F := Ideal) .bf16 w1 bitsLt_bf16_f32) transposes_S256x4096_p1_0_S4096x256)
        (constant (F := Ideal) S8x256 .f32 0x00000000#32) (ix2 b q)) wZero = _
    rw [mm1]
    unfold Cert.Fuse.hidden
    refine congrArg (fun s => max s wZero) (Finset.sum_congr rfl fun k _ => ?_)
    refine congrArg₂ (· * ·) ?_ ?_
    · show shapeCast S8x4096 y shapeCasts_S8x4096_S8x4096 (ix2 b k) = y (ix2 b k)
      rw [shapeCast_self]
    · exact transpose_apply [1, 0] (truncf (F := Ideal) .bf16 w1 bitsLt_bf16_f32) transposes_S256x4096_p1_0_S4096x256 (ix2 k q) (ix2 q k)
        (fun a => by match a with | ⟨0, _⟩ => rfl | ⟨1, _⟩ => rfl)
  · exact transpose_apply [1, 0] (truncf (F := Ideal) .bf16 w2 bitsLt_bf16_f32) transposes_S4096x256_p1_0_S256x4096 (ix2 q ch) (ix2 ch q)
      (fun a => by match a with | ⟨0, _⟩ => rfl | ⟨1, _⟩ => rfl)

end Cert.KernelIdeal.Val

end
-- ==== Proof.Reg1.lean ====
/-
  The second launch, from its one block to the array.  The grid has one point and every window's block is its whole
  array, so the gate array [8, 4096] ends as ONE function of the pooled values Y [8, 4096] and the two weight matrices as
  the launch finds them: logistic(Σ_r max(Σ_k Y(b,k)·w1(r,k), 0)·w2(ch,r)) at (b, ch).
-/
import proofs.«162184_j68135361184293_1_alg».proof.Proof.Gen.KernelIdeal.Frame
import proofs.«162184_j68135361184293_1_alg».proof.Proof.Pay1
import Idealize.ShloMosaic.Lib.Pipeline.Value

noncomputable section

open scoped BigOperators

namespace Cert.KernelIdeal.Val

open Cert.KernelIdeal Cert.KernelIdeal.Gen Cert.Fuse
open Idealize.ShloMosaic Idealize.ShloMosaic.TcCoe Idealize.SL.Sem Idealize.ShloMosaic.ValueIdx
open Idealize.ShloMosaic.Pipeline (Dat Cfg Window)

theorem z2_1 : (![0, 0] : Fin 2 → Nat) = fun _ => 0 := funext fun a => by fin_cases a <;> rfl

/-- The gate array as a function of the pooled values and the weights. -/
def gateArr (Y : (⟨2, ![8, 4096]⟩ : Shape).Idx → EReal) (w1 : (⟨2, ![256, 4096]⟩ : Shape).Idx → EReal)
    (w2 : (⟨2, ![4096, 256]⟩ : Shape).Idx → EReal) : (⟨2, ![8, 4096]⟩ : Shape).Idx → EReal :=
  fun i => gate w1 w2 (fun b k => Y (ix2 b k)) (i 0) (i 1)

/-- Every block index of the one grid point is zero. -/
theorem idx1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

variable (V : (c : Dev nD) → (b : Ref sig .tc) → Buf (Elt Ideal) ((c : Thread nD τ).loc b))

theorem whole1_0 (c : Dev nD) (t : Fin cfg1.N) : (iblk1 V c 0 t : Vec Ideal S8x4096 .f32) = V c main_v4 := by
  obtain ⟨e0, e1, -⟩ := idx1 t
  funext y
  show V c main_v4 (((cfg1.win 0).blk t).view.emb y) = V c main_v4 y
  refine congrArg (V c main_v4) (funext fun a => Fin.ext ?_)
  match a with
  | ⟨0, _⟩ => show win1_0.index t (0 : Fin 2) * 8 + 1 * (y 0).val = (y 0).val; omega
  | ⟨1, _⟩ => show win1_0.index t (1 : Fin 2) * 4096 + 1 * (y 1).val = (y 1).val; omega

theorem whole1_1 (c : Dev nD) (t : Fin cfg1.N) : (iblk1 V c 1 t : Vec Ideal S256x4096 .f32) = V c main_arg2 := by
  obtain ⟨-, -, e0, e1, -⟩ := idx1 t
  funext y
  show V c main_arg2 (((cfg1.win 1).blk t).view.emb y) = V c main_arg2 y
  refine congrArg (V c main_arg2) (funext fun a => Fin.ext ?_)
  match a with
  | ⟨0, _⟩ => show win1_1.index t (0 : Fin 2) * 256 + 1 * (y 0).val = (y 0).val; omega
  | ⟨1, _⟩ => show win1_1.index t (1 : Fin 2) * 4096 + 1 * (y 1).val = (y 1).val; omega

theorem whole1_2 (c : Dev nD) (t : Fin cfg1.N) : (iblk1 V c 2 t : Vec Ideal S4096x256 .f32) = V c main_arg3 := by
  obtain ⟨-, -, -, -, e0, e1, -⟩ := idx1 t
  funext y
  show V c main_arg3 (((cfg1.win 2).blk t).view.emb y) = V c main_arg3 y
  refine congrArg (V c main_arg3) (funext fun a => Fin.ext ?_)
  match a with
  | ⟨0, _⟩ => show win1_2.index t (0 : Fin 2) * 4096 + 1 * (y 0).val = (y 0).val; omega
  | ⟨1, _⟩ => show win1_2.index t (1 : Fin 2) * 256 + 1 * (y 1).val = (y 1).val; omega

theorem flushed1_3 (c : Dev nD) (t : Fin cfg1.N) :
    (dat1 V c).flushed 3 t = ((cfg1.win 3).blk t).view.read (Elt Ideal) (gateArr (V c main_v4) (V c main_arg2) (V c main_arg3)) := by
  show (cfg1.win 3).cut (grid1.coords t) ((dat1 V c).after 3 t) = _
  rw [after1_3]
  unfold out1_3
  rw [View.canon_unit_zero z2_1]
  simp only [View.ld_unit_zero (S := S8x4096) z2_1, View.ld_unit_zero (S := S256x4096) z2_1, View.ld_unit_zero (S := S4096x256) z2_1]
  obtain ⟨-, -, -, -, -, -, e6, e7⟩ := idx1 t
  funext y
  obtain ⟨b, ch, rfl⟩ : ∃ (b : Fin 8) (ch : Fin 4096), y = ix2 b ch := ⟨y 0, y 1, eq_ix2 y⟩
  have hemb : ((cfg1.win 3).blk t).view.emb (ix2 b ch) = ix2 b ch :=
    funext fun a => Fin.ext (by
      match a with
      | ⟨0, _⟩ => show win1_3.index t (0 : Fin 2) * 8 + 1 * b.val = b.val; omega
      | ⟨1, _⟩ => show win1_3.index t (1 : Fin 2) * 4096 + 1 * ch.val = ch.val; omega)
  show k1_pay1 (iblk1 V c 0 t) (iblk1 V c 1 t) (iblk1 V c 2 t) (ix2 b ch)
    = gateArr (V c main_v4) (V c main_arg2) (V c main_arg3) (((cfg1.win 3).blk t).view.emb (ix2 b ch))
  rw [hemb, whole1_0 V c t, whole1_1 V c t, whole1_2 V c t]
  exact pay1_apply (V c main_v4) (V c main_arg2) (V c main_arg3) b ch

theorem mem_blk1_3 (t : Fin cfg1.N) (i : S8x4096.Idx) :
    i ∈ ((cfg1.win 3).blk t).view.set ↔ ∀ a : Fin 2, win1_3.index t a * S8x4096.size a ≤ (i a).val ∧ (i a).val < win1_3.index t a * S8x4096.size a + S8x4096.size a := by
  show i ∈ ((View.whole main_v5).slice (win1_3.rect t)).set ↔ _
  rw [View.set_slice_whole, Rect.mem_set_unit]
  exact Iff.rfl

/-- The gate array after the launch. -/
theorem final1_3 (c : Dev nD) : (dat1 V c).arrAt 3 cfg1.N = gateArr (V c main_v4) (V c main_arg2) (V c main_arg3) :=
  (dat1 V c).arrAt_eq_of_cover 3 _ (fun t _ => flushed1_3 V c t) (fun i => by
    have hi0 : (i 0).val < 8 := (i 0).isLt
    have hi1 : (i 1).val < 4096 := (i 1).isLt
    obtain ⟨-, -, -, -, -, -, e6, e7⟩ := idx1 t1_0
    refine ⟨t1_0, flush1_3 t1_0, ?_⟩
    rw [mem_blk1_3]
    intro a
    match a with
    | ⟨0, _⟩ => show win1_3.index t1_0 (0 : Fin 2) * 8 ≤ (i 0).val ∧ (i 0).val < win1_3.index t1_0 (0 : Fin 2) * 8 + 8; omega
    | ⟨1, _⟩ => show win1_3.index t1_0 (1 : Fin 2) * 4096 ≤ (i 1).val ∧ (i 1).val < win1_3.index t1_0 (1 : Fin 2) * 4096 + 4096; omega)

end Cert.KernelIdeal.Val

end
-- ==== Proof.Pay23.lean ====
/-
  The third and fourth kernels' stored values at the ideal values, read at an index.  Their block holds 128 channels of all
  8 batches: x is the [8, 128, 1024] block of one embedding, mu the [128, 8] block of the OTHER embedding's row means and g
  the [128, 8] block of the gate, both laid out (channel, batch).  The stored value at (b, c, j) is the gated row
  x_j·(inner_j + 1), with the other embedding's mean read at (c, b), times (1 + g(c, b)).
-/
import proofs.«162184_j68135361184293_1_alg».proof.Proof.Gen.KernelIdeal.Skeleton
import proofs.«162184_j68135361184293_1_alg».proof.Proof.BlockOps
import Idealize.ShloMosaic.Lib.Pipeline.Value

noncomputable section

open scoped BigOperators

namespace Cert.KernelIdeal.Val

open Cert.KernelIdeal Cert.KernelIdeal.Gen Cert.Fuse Cert.Lib.LastAxis
open Idealize.ShloMosaic Idealize.ShloMosaic.ValueIdx

/-- A gated row with the other embedding's mean given as a number: the first and the second embedding's arrangement. -/
def scaled1 (x : Row) (mu : EReal) : Row := fun j => x j * ((Ideal.div (x j) w1024 + mu * softmax x j) + wOne)
def scaled2 (x : Row) (mu : EReal) : Row := fun j => x j * ((softmax x j * mu + Ideal.div (x j) w1024) + wOne)
theorem gateK1_scaled (x1 x2 : Row) : gateK1 x1 x2 = scaled1 x1 (mean x2) := rfl
theorem gateK2_scaled (x1 x2 : Row) : gateK2 x1 x2 = scaled2 x2 (mean x1) := rfl

variable (x : Vec Ideal S8x128x1024 .f32) (mu g : Vec Ideal S128x8 .f32)

/-- The [128, 8] → [8, 128] transposition read at an index. -/
theorem transposeT128 (v : FVec Ideal S128x8 .f32) (b : Fin 8) (c : Fin 128) :
    transpose S8x128 [1, 0] v transposes_S128x8_p1_0_S8x128 (ix2 b c) = v (ix2 c b) :=
  transpose_apply [1, 0] v transposes_S128x8_p1_0_S8x128 (ix2 b c) (ix2 c b)
    (fun a => by match a with | ⟨0, _⟩ => rfl | ⟨1, _⟩ => rfl)

/-- A (channel, batch) table transposed, kept as a column and broadcast along the row. -/
theorem colT (v : Vec Ideal S128x8 .f32) (b : Fin 8) (c : Fin 128) (j : Fin 1024) :
    broadcastTo S8x128x1024 (shapeCast S8x128x1 (transpose S8x128 [1, 0] (shapeCast S128x8 v shapeCasts_S128x8_S128x8)
      transposes_S128x8_p1_0_S8x128) shapeCasts_S8x128_S8x128x1) broadcasts_S8x128x1_S8x128x1024 (ix3 b c j) = v (ix2 c b) := by
  rw [keep_bcast, shapeCast_self, transposeT128]

/-- One plus such a table, formed on the column and then broadcast. -/
theorem onePlusT (v : Vec Ideal S128x8 .f32) (b : Fin 8) (c : Fin 128) (j : Fin 1024) :
    broadcastTo S8x128x1024 (addf (F := Ideal) (broadcast S8x128x1 (Scalar.ofBits (F := Ideal) .f32 0x3F800000#32))
      (shapeCast S8x128x1 (transpose S8x128 [1, 0] (shapeCast S128x8 v shapeCasts_S128x8_S128x8)
        transposes_S128x8_p1_0_S8x128) shapeCasts_S8x128_S8x128x1)) broadcasts_S8x128x1_S8x128x1024 (ix3 b c j)
      = wOne + v (ix2 c b) := by
  rw [broadcastTo_ab1_abd_apply]
  show wOne + shapeCast S8x128x1 (transpose S8x128 [1, 0] (shapeCast S128x8 v shapeCasts_S128x8_S128x8)
        transposes_S128x8_p1_0_S8x128) shapeCasts_S8x128_S8x128x1 (ix3 b c (0 : Fin 1)) = _
  rw [shapeCast_ab_ab1_apply, shapeCast_self, transposeT128]

theorem pay2_apply (b : Fin 8) (c : Fin 128) (j : Fin 1024) :
    k2_pay1 (F := Ideal) x mu g (ix3 b c j) = scaled1 (row3 x b c) (mu (ix2 c b)) j * (wOne + g (ix2 c b)) := by
  have e : shapeCast S8x128x1024 x shapeCasts_S8x128x1024_S8x128x1024 = x := shapeCast_self x _
  show (shapeCast S8x128x1024 x shapeCasts_S8x128x1024_S8x128x1024 (ix3 b c j)
      * ((Ideal.div (shapeCast S8x128x1024 x shapeCasts_S8x128x1024_S8x128x1024 (ix3 b c j)) w1024
          + broadcastTo S8x128x1024 (shapeCast S8x128x1 (transpose S8x128 [1, 0] (shapeCast S128x8 mu shapeCasts_S128x8_S128x8)
              transposes_S128x8_p1_0_S8x128) shapeCasts_S8x128_S8x128x1) broadcasts_S8x128x1_S8x128x1024 (ix3 b c j)
            * smBlk (shapeCast S8x128x1024 x shapeCasts_S8x128x1024_S8x128x1024) reduces_S8x128x1024_S8x128 (.inl rfl) rfl rfl
                shapeCasts_S8x128_S8x128x1 broadcasts_S8x128x1_S8x128x1024 (ix3 b c j)) + wOne))
      * broadcastTo S8x128x1024 (addf (F := Ideal) (broadcast S8x128x1 (Scalar.ofBits (F := Ideal) .f32 0x3F800000#32))
          (shapeCast S8x128x1 (transpose S8x128 [1, 0] (shapeCast S128x8 g shapeCasts_S128x8_S128x8)
            transposes_S128x8_p1_0_S8x128) shapeCasts_S8x128_S8x128x1)) broadcasts_S8x128x1_S8x128x1024 (ix3 b c j) = _
  rw [e, colT, onePlusT]
  exact congrArg (fun s => x (ix3 b c j) * ((Ideal.div (x (ix3 b c j)) w1024 + mu (ix2 c b) * s) + wOne) * (wOne + g (ix2 c b))) (smBlk_apply x _ _ _ _ _ _ b c j)

theorem pay3_apply (b : Fin 8) (c : Fin 128) (j : Fin 1024) :
    k3_pay1 (F := Ideal) x mu g (ix3 b c j) = scaled2 (row3 x b c) (mu (ix2 c b)) j * (wOne + g (ix2 c b)) := by
  have e : shapeCast S8x128x1024 x shapeCasts_S8x128x1024_S8x128x1024 = x := shapeCast_self x _
  show (shapeCast S8x128x1024 x shapeCasts_S8x128x1024_S8x128x1024 (ix3 b c j)
      * ((smBlk (shapeCast S8x128x1024 x shapeCasts_S8x128x1024_S8x128x1024) reduces_S8x128x1024_S8x128 (.inl rfl) rfl rfl
                shapeCasts_S8x128_S8x128x1 broadcasts_S8x128x1_S8x128x1024 (ix3 b c j)
            * broadcastTo S8x128x1024 (shapeCast S8x128x1 (transpose S8x128 [1, 0] (shapeCast S128x8 mu shapeCasts_S128x8_S128x8)
              transposes_S128x8_p1_0_S8x128) shapeCasts_S8x128_S8x128x1) broadcasts_S8x128x1_S8x128x1024 (ix3 b c j)
          + Ideal.div (shapeCast S8x128x1024 x shapeCasts_S8x128x1024_S8x128x1024 (ix3 b c j)) w1024) + wOne))
      * broadcastTo S8x128x1024 (addf (F := Ideal) (broadcast S8x128x1 (Scalar.ofBits (F := Ideal) .f32 0x3F800000#32))
          (shapeCast S8x128x1 (transpose S8x128 [1, 0] (shapeCast S128x8 g shapeCasts_S128x8_S128x8)
            transposes_S128x8_p1_0_S8x128) shapeCasts_S8x128_S8x128x1)) broadcasts_S8x128x1_S8x128x1024 (ix3 b c j) = _
  rw [e, colT, onePlusT]
  exact congrArg (fun s => x (ix3 b c j) * ((s * mu (ix2 c b) + Ideal.div (x (ix3 b c j)) w1024) + wOne) * (wOne + g (ix2 c b))) (smBlk_apply x _ _ _ _ _ _ b c j)

end Cert.KernelIdeal.Val

end
-- ==== Proof.Reg2.lean ====
/-
  The third launch, from blocks to the array.  Its 16 grid points each take 128 consecutive channels of the first
  embedding E [8, 2048, 1024] (all 8 batches) with the matching 128 rows of the second embedding's means MU and of the
  gate GT (both [2048, 8], (channel, batch)), and write block (·, t, ·) of an [8, 4096, 1024] array: channels
  128t … 128t+127.  The 16 blocks fill the channels below 2048; on those the array ends as ONE function of E, MU and GT,
  and above them it keeps what the launch found there.
-/
import proofs.«162184_j68135361184293_1_alg».proof.Proof.Gen.KernelIdeal.Frame
import proofs.«162184_j68135361184293_1_alg».proof.Proof.Pay23
import Idealize.ShloMosaic.Lib.Pipeline.Value

noncomputable section

open scoped BigOperators

namespace Cert.KernelIdeal.Val

open Cert.KernelIdeal Cert.KernelIdeal.Gen Cert.Fuse
open Idealize.ShloMosaic Idealize.ShloMosaic.TcCoe Idealize.SL.Sem Idealize.ShloMosaic.ValueIdx
open Idealize.ShloMosaic.Pipeline (Dat Cfg Window)

theorem z2_2 : (![0, 0] : Fin 2 → Nat) = fun _ => 0 := funext fun a => by fin_cases a <;> rfl
theorem z3_2 : (![0, 0, 0] : Fin 3 → Nat) = fun _ => 0 := funext fun a => by fin_cases a <;> rfl

/-- The lower half of the result: at (b, ch, j) with ch < 2048, the first embedding's gated row times (1 + gate). -/
def out1Arr (E : (⟨3, ![8, 2048, 1024]⟩ : Shape).Idx → EReal) (MU GT : (⟨2, ![2048, 8]⟩ : Shape).Idx → EReal) :
    (⟨3, ![8, 4096, 1024]⟩ : Shape).Idx → EReal := fun i =>
  if h : (i 1).val < 2048 then
    scaled1 (row3 E (i 0) ⟨(i 1).val, h⟩) (MU (ix2 (⟨(i 1).val, h⟩ : Fin 2048) (i 0))) (i 2) * (wOne + GT (ix2 (⟨(i 1).val, h⟩ : Fin 2048) (i 0)))
  else 0

theorem out1Arr_lo (E : (⟨3, ![8, 2048, 1024]⟩ : Shape).Idx → EReal) (MU GT : (⟨2, ![2048, 8]⟩ : Shape).Idx → EReal)
    (b : Fin 8) (P : Fin 4096) (j : Fin 1024) (h : P.val < 2048) :
    out1Arr E MU GT (ix3 b P j)
      = scaled1 (row3 E b ⟨P.val, h⟩) (MU (ix2 (⟨P.val, h⟩ : Fin 2048) b)) j * (wOne + GT (ix2 (⟨P.val, h⟩ : Fin 2048) b)) :=
  dif_pos h

theorem idx2 : ∀ t : Fin cfg2.N,
    win2_0.index t (0 : Fin 3) = 0 ∧ win2_0.index t (1 : Fin 3) = t.val ∧ win2_0.index t (2 : Fin 3) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 3) = 0 ∧ win2_3.index t (1 : Fin 3) = t.val ∧ win2_3.index t (2 : Fin 3) = 0
    ∧ t.val < 16 :=
  (by decide +kernel : ∀ t : Fin grid2.N, _)
theorem onto2 : ∀ q : Fin 16, ∃ t : Fin cfg2.N, t.val = q.val :=
  (by decide +kernel : ∀ q : Fin 16, ∃ t : Fin grid2.N, t.val = q.val)

variable (V : (c : Dev nD) → (b : Ref sig .tc) → Buf (Elt Ideal) ((c : Thread nD τ).loc b))

theorem flushed2_3 (c : Dev nD) (t : Fin cfg2.N) :
    (dat2 V c).flushed 3 t = ((cfg2.win 3).blk t).view.read (Elt Ideal) (out1Arr (V c main_v0) (V c main_v2_1) (V c main_v7)) := by
  show (cfg2.win 3).cut (grid2.coords t) ((dat2 V c).after 3 t) = _
  rw [after2_3]
  unfold out2_3
  rw [View.canon_unit_zero z3_2]
  simp only [View.ld_unit_zero (S := S8x128x1024) z3_2, View.ld_unit_zero (S := S128x8) z2_2]
  obtain ⟨a0, a1, a2, b0, b1, c0, c1, d0, d1, d2, ht⟩ := idx2 t
  funext y
  obtain ⟨b, p, j, rfl⟩ : ∃ (b : Fin 8) (p : Fin 128) (j : Fin 1024), y = ix3 b p j := ⟨y 0, y 1, y 2, eq_ix3 y⟩
  have hP : t.val * 128 + p.val < 2048 := by have := p.isLt; omega
  have hP' : t.val * 128 + p.val < 4096 := by omega
  have hemb : ((cfg2.win 3).blk t).view.emb (ix3 b p j) = ix3 b (⟨t.val * 128 + p.val, hP'⟩ : Fin 4096) j :=
    funext fun a => Fin.ext (by
      match a with
      | ⟨0, _⟩ => show win2_3.index t (0 : Fin 3) * 8 + 1 * b.val = b.val; omega
      | ⟨1, _⟩ => show win2_3.index t (1 : Fin 3) * 128 + 1 * p.val = t.val * 128 + p.val; omega
      | ⟨2, _⟩ => show win2_3.index t (2 : Fin 3) * 1024 + 1 * j.val = j.val; omega)
  have hrow : row3 (iblk2 V c 0 t) b p = row3 (V c main_v0) b ⟨t.val * 128 + p.val, hP⟩ := by
    funext k
    show V c main_v0 (((cfg2.win 0).blk t).view.emb (ix3 b p k)) = V c main_v0 (ix3 b ⟨t.val * 128 + p.val, hP⟩ k)
    refine congrArg (V c main_v0) (funext fun a => Fin.ext ?_)
    match a with
    | ⟨0, _⟩ => show win2_0.index t (0 : Fin 3) * 8 + 1 * b.val = b.val; omega
    | ⟨1, _⟩ => show win2_0.index t (1 : Fin 3) * 128 + 1 * p.val = t.val * 128 + p.val; omega
    | ⟨2, _⟩ => show win2_0.index t (2 : Fin 3) * 1024 + 1 * k.val = k.val; omega
  have hmu : iblk2 V c 1 t (ix2 p b) = V c main_v2_1 (ix2 (⟨t.val * 128 + p.val, hP⟩ : Fin 2048) b) := by
    show V c main_v2_1 (((cfg2.win 1).blk t).view.emb (ix2 p b)) = _
    refine congrArg (V c main_v2_1) (funext fun a => Fin.ext ?_)
    match a with
    | ⟨0, _⟩ => show win2_1.index t (0 : Fin 2) * 128 + 1 * p.val = t.val * 128 + p.val; omega
    | ⟨1, _⟩ => show win2_1.index t (1 : Fin 2) * 8 + 1 * b.val = b.val; omega
  have hg : iblk2 V c 2 t (ix2 p b) = V c main_v7 (ix2 (⟨t.val * 128 + p.val, hP⟩ : Fin 2048) b) := by
    show V c main_v7 (((cfg2.win 2).blk t).view.emb (ix2 p b)) = _
    refine congrArg (V c main_v7) (funext fun a => Fin.ext ?_)
    match a with
    | ⟨0, _⟩ => show win2_2.index t (0 : Fin 2) * 128 + 1 * p.val = t.val * 128 + p.val; omega
    | ⟨1, _⟩ => show win2_2.index t (1 : Fin 2) * 8 + 1 * b.val = b.val; omega
  show k2_pay1 (iblk2 V c 0 t) (iblk2 V c 1 t) (iblk2 V c 2 t) (ix3 b p j)
    = out1Arr (V c main_v0) (V c main_v2_1) (V c main_v7) (((cfg2.win 3).blk t).view.emb (ix3 b p j))
  rw [hemb, out1Arr_lo (V c main_v0) (V c main_v2_1) (V c main_v7) b _ j hP]
  refine (pay2_apply (iblk2 V c 0 t) (iblk2 V c 1 t) (iblk2 V c 2 t) b p j).trans ?_
  rw [hrow, hmu, hg]

theorem mem_blk2_3 (t : Fin cfg2.N) (i : S8x4096x1024.Idx) :
    i ∈ ((cfg2.win 3).blk t).view.set ↔ ∀ a : Fin 3, win2_3.index t a * S8x128x1024.size a ≤ (i a).val ∧ (i a).val < win2_3.index t a * S8x128x1024.size a + S8x128x1024.size a := by
  show i ∈ ((View.whole main_v10).slice (win2_3.rect t)).set ↔ _
  rw [View.set_slice_whole, Rect.mem_set_unit]
  exact Iff.rfl

/-- The covered indices: exactly the channels below 2048. -/
theorem covered2 (i : S8x4096x1024.Idx) :
    (∃ t : Fin cfg2.N, (cfg2.win 3).flush t = true ∧ i ∈ ((cfg2.win 3).blk t).view.set) ↔ (i 1).val < 2048 := by
  have hi0 : (i 0).val < 8 := (i 0).isLt
  have hi1 : (i 1).val < 4096 := (i 1).isLt
  have hi2 : (i 2).val < 1024 := (i 2).isLt
  constructor
  · rintro ⟨t, -, hi⟩
    rw [mem_blk2_3] at hi
    have b1 : win2_3.index t (1 : Fin 3) * 128 ≤ (i 1).val ∧ (i 1).val < win2_3.index t (1 : Fin 3) * 128 + 128 := hi 1
    obtain ⟨-, -, -, -, -, -, -, d0, d1, d2, ht⟩ := idx2 t
    omega
  · intro h
    obtain ⟨t, ht⟩ := onto2 ⟨(i 1).val / 128, by omega⟩
    have ht' : t.val = (i 1).val / 128 := ht
    obtain ⟨-, -, -, -, -, -, -, d0, d1, d2, -⟩ := idx2 t
    refine ⟨t, flush2_3 t, ?_⟩
    rw [mem_blk2_3]
    intro a
    match a with
    | ⟨0, _⟩ => show win2_3.index t (0 : Fin 3) * 8 ≤ (i 0).val ∧ (i 0).val < win2_3.index t (0 : Fin 3) * 8 + 8; omega
    | ⟨1, _⟩ => show win2_3.index t (1 : Fin 3) * 128 ≤ (i 1).val ∧ (i 1).val < win2_3.index t (1 : Fin 3) * 128 + 128; omega
    | ⟨2, _⟩ => show win2_3.index t (2 : Fin 3) * 1024 ≤ (i 2).val ∧ (i 2).val < win2_3.index t (2 : Fin 3) * 1024 + 1024; omega

/-- The array after the launch: the function below channel 2048, the entry contents above. -/
theorem final2_3 (c : Dev nD) (i : S8x4096x1024.Idx) :
    (dat2 V c).arrAt 3 cfg2.N i
      = if (i 1).val < 2048 then out1Arr (V c main_v0) (V c main_v2_1) (V c main_v7) i else V c main_v10 i := by
  rw [(dat2 V c).arrAt_eq_piecewise 3 _ (fun t _ => flushed2_3 V c t) i, A_eq2]
  exact if_congr (covered2 i) rfl rfl

end Cert.KernelIdeal.Val

end
-- ==== Proof.Reg3.lean ====
/-
  The fourth launch, from blocks to the array.  Its 16 grid points each take 128 consecutive channels of the second
  embedding E [8, 2048, 1024] with the matching rows of the first embedding's means MU and of the gate GT, and write block
  (·, 16 + t, ·) of the [8, 4096, 1024] result: channels 2048 + 128t ….  The body's one store leaves its computed value in
  the whole block.  The 16 blocks fill the channels from 2048 up; on those the array ends as ONE function of E, MU and GT,
  and below them it keeps what the launch found there (the third launch's half).
-/
import proofs.«162184_j68135361184293_1_alg».proof.Proof.Gen.KernelIdeal.Frame
import proofs.«162184_j68135361184293_1_alg».proof.Proof.Pay23
import Idealize.ShloMosaic.Lib.Pipeline.Value

noncomputable section

open scoped BigOperators

namespace Cert.KernelIdeal.Val

open Cert.KernelIdeal Cert.KernelIdeal.Gen Cert.Fuse
open Idealize.ShloMosaic Idealize.ShloMosaic.TcCoe Idealize.SL.Sem Idealize.ShloMosaic.ValueIdx
open Idealize.ShloMosaic.Pipeline (Dat Cfg Window)
open Idealize.ShloMosaic.Tactic

theorem z2_3 : (![0, 0] : Fin 2 → Nat) = fun _ => 0 := funext fun a => by fin_cases a <;> rfl
theorem z3_3 : (![0, 0, 0] : Fin 3 → Nat) = fun _ => 0 := funext fun a => by fin_cases a <;> rfl

/-- A channel of the upper half, counted from 2048. -/
def hiIdx (n : Nat) (h1 : n < 4096) (h2 : 2048 ≤ n) : Fin 2048 := ⟨n - 2048, by omega⟩

/-- The upper half of the result: at (b, ch, j) with 2048 ≤ ch, the second embedding's gated row times (1 + gate). -/
def out2Arr (E : (⟨3, ![8, 2048, 1024]⟩ : Shape).Idx → EReal) (MU GT : (⟨2, ![2048, 8]⟩ : Shape).Idx → EReal) :
    (⟨3, ![8, 4096, 1024]⟩ : Shape).Idx → EReal := fun i =>
  if h : 2048 ≤ (i 1).val then
    scaled2 (row3 E (i 0) (hiIdx (i 1).val (i 1).isLt h)) (MU (ix2 (hiIdx (i 1).val (i 1).isLt h) (i 0))) (i 2)
      * (wOne + GT (ix2 (hiIdx (i 1).val (i 1).isLt h) (i 0)))
  else 0

theorem out2Arr_hi (E : (⟨3, ![8, 2048, 1024]⟩ : Shape).Idx → EReal) (MU GT : (⟨2, ![2048, 8]⟩ : Shape).Idx → EReal)
    (b : Fin 8) (P : Fin 4096) (j : Fin 1024) (h : 2048 ≤ P.val) :
    out2Arr E MU GT (ix3 b P j)
      = scaled2 (row3 E b (hiIdx P.val P.isLt h)) (MU (ix2 (hiIdx P.val P.isLt h) b)) j * (wOne + GT (ix2 (hiIdx P.val P.isLt h) b)) :=
  dif_pos h

theorem idx3 : ∀ t : Fin cfg3.N,
    win3_0.index t (0 : Fin 3) = 0 ∧ win3_0.index t (1 : Fin 3) = t.val ∧ win3_0.index t (2 : Fin 3) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 3) = 0 ∧ win3_3.index t (1 : Fin 3) = 16 + t.val ∧ win3_3.index t (2 : Fin 3) = 0
    ∧ t.val < 16 :=
  (by decide +kernel : ∀ t : Fin grid3.N, _)
theorem onto3 : ∀ q : Fin 16, ∃ t : Fin cfg3.N, t.val = q.val :=
  (by decide +kernel : ∀ q : Fin 16, ∃ t : Fin grid3.N, t.val = q.val)

/-- The body's one store through the whole block leaves the computed value, whatever memrefs it ran on. -/
theorem stored3 (c : Dev nD) (i : grid3.Coords) (arg1 : Memref sig .tc .vmem S8x128x1024 .f32) (harg1 : arg1.IsWhole) (arg2 : Memref sig .tc .vmem S128x8 .f32) (harg2 : arg2.IsWhole) (arg3 : Memref sig .tc .vmem S128x8 .f32) (harg3 : arg3.IsWhole) (arg5 : Memref sig .tc .vmem S8x128x1024 .f32) (harg5 : arg5.IsWhole)
    (x0 : Vec Ideal S8x128x1024 .f32) (x1 : Vec Ideal S128x8 .f32) (x2 : Vec Ideal S128x8 .f32) :
    out3_A_3 (F := Ideal) c i arg1 harg1 arg2 harg2 arg3 harg3 arg5 harg5 x0 x1 x2 = k3_pay1 x0 x1 x2 := by
  unfold out3_A_3
  rw [View.read_writes_eq_canon _ _ _ (cover3_A_3 c i arg1 harg1 arg2 harg2 arg3 harg3 arg5 harg5 x0 x1 x2)]
  unfold kernelRun3_A
  dsimp only
  sl_unfold_words
  rw [View.canon_unit_zero z3_3]
  simp only [View.readAt_eq_ld, harg1.read_unread, harg2.read_unread, harg3.read_unread,
    View.ld_unit_zero (S := S8x128x1024) z3_3, View.ld_unit_zero (S := S128x8) z2_3]

variable (V : (c : Dev nD) → (b : Ref sig .tc) → Buf (Elt Ideal) ((c : Thread nD τ).loc b))

theorem flushed3_3 (c : Dev nD) (t : Fin cfg3.N) :
    (dat3 V c).flushed 3 t = ((cfg3.win 3).blk t).view.read (Elt Ideal) (out2Arr (V c main_v1) (V c main_v2_0) (V c main_v9)) := by
  show (cfg3.win 3).cut (grid3.coords t) ((dat3 V c).after 3 t) = _
  rw [after3_3]
  unfold outsAt3
  rw [stored3 c (grid3.coords t) (ms3_0 t) (hs3_0 t) (ms3_1 t) (hs3_1 t) (ms3_2 t) (hs3_2 t) (ms3_3 t) (hs3_3 t) (iblk3 V c 0 t) (iblk3 V c 1 t) (iblk3 V c 2 t)]
  obtain ⟨a0, a1, a2, b0, b1, c0, c1, d0, d1, d2, ht⟩ := idx3 t
  funext y
  obtain ⟨b, p, j, rfl⟩ : ∃ (b : Fin 8) (p : Fin 128) (j : Fin 1024), y = ix3 b p j := ⟨y 0, y 1, y 2, eq_ix3 y⟩
  have hP : t.val * 128 + p.val < 2048 := by have := p.isLt; omega
  have hP' : 2048 + (t.val * 128 + p.val) < 4096 := by omega
  have hemb : ((cfg3.win 3).blk t).view.emb (ix3 b p j) = ix3 b (⟨2048 + (t.val * 128 + p.val), hP'⟩ : Fin 4096) j :=
    funext fun a => Fin.ext (by
      match a with
      | ⟨0, _⟩ => show win3_3.index t (0 : Fin 3) * 8 + 1 * b.val = b.val; omega
      | ⟨1, _⟩ => show win3_3.index t (1 : Fin 3) * 128 + 1 * p.val = 2048 + (t.val * 128 + p.val); omega
      | ⟨2, _⟩ => show win3_3.index t (2 : Fin 3) * 1024 + 1 * j.val = j.val; omega)
  have hhi : (2048 : Nat) ≤ 2048 + (t.val * 128 + p.val) := by omega
  have hq : hiIdx (2048 + (t.val * 128 + p.val)) hP' hhi = (⟨t.val * 128 + p.val, hP⟩ : Fin 2048) :=
    Fin.ext (by show 2048 + (t.val * 128 + p.val) - 2048 = t.val * 128 + p.val; omega)
  have hrow : row3 (iblk3 V c 0 t) b p = row3 (V c main_v1) b ⟨t.val * 128 + p.val, hP⟩ := by
    funext k
    show V c main_v1 (((cfg3.win 0).blk t).view.emb (ix3 b p k)) = V c main_v1 (ix3 b ⟨t.val * 128 + p.val, hP⟩ k)
    refine congrArg (V c main_v1) (funext fun a => Fin.ext ?_)
    match a with
    | ⟨0, _⟩ => show win3_0.index t (0 : Fin 3) * 8 + 1 * b.val = b.val; omega
    | ⟨1, _⟩ => show win3_0.index t (1 : Fin 3) * 128 + 1 * p.val = t.val * 128 + p.val; omega
    | ⟨2, _⟩ => show win3_0.index t (2 : Fin 3) * 1024 + 1 * k.val = k.val; omega
  have hmu : iblk3 V c 1 t (ix2 p b) = V c main_v2_0 (ix2 (⟨t.val * 128 + p.val, hP⟩ : Fin 2048) b) := by
    show V c main_v2_0 (((cfg3.win 1).blk t).view.emb (ix2 p b)) = _
    refine congrArg (V c main_v2_0) (funext fun a => Fin.ext ?_)
    match a with
    | ⟨0, _⟩ => show win3_1.index t (0 : Fin 2) * 128 + 1 * p.val = t.val * 128 + p.val; omega
    | ⟨1, _⟩ => show win3_1.index t (1 : Fin 2) * 8 + 1 * b.val = b.val; omega
  have hg : iblk3 V c 2 t (ix2 p b) = V c main_v9 (ix2 (⟨t.val * 128 + p.val, hP⟩ : Fin 2048) b) := by
    show V c main_v9 (((cfg3.win 2).blk t).view.emb (ix2 p b)) = _
    refine congrArg (V c main_v9) (funext fun a => Fin.ext ?_)
    match a with
    | ⟨0, _⟩ => show win3_2.index t (0 : Fin 2) * 128 + 1 * p.val = t.val * 128 + p.val; omega
    | ⟨1, _⟩ => show win3_2.index t (1 : Fin 2) * 8 + 1 * b.val = b.val; omega
  show k3_pay1 (iblk3 V c 0 t) (iblk3 V c 1 t) (iblk3 V c 2 t) (ix3 b p j)
    = out2Arr (V c main_v1) (V c main_v2_0) (V c main_v9) (((cfg3.win 3).blk t).view.emb (ix3 b p j))
  rw [hemb, out2Arr_hi (V c main_v1) (V c main_v2_0) (V c main_v9) b _ j hhi, hq]
  refine (pay3_apply (iblk3 V c 0 t) (iblk3 V c 1 t) (iblk3 V c 2 t) b p j).trans ?_
  rw [hrow, hmu, hg]

theorem mem_blk3_3 (t : Fin cfg3.N) (i : S8x4096x1024.Idx) :
    i ∈ ((cfg3.win 3).blk t).view.set ↔ ∀ a : Fin 3, win3_3.index t a * S8x128x1024.size a ≤ (i a).val ∧ (i a).val < win3_3.index t a * S8x128x1024.size a + S8x128x1024.size a := by
  show i ∈ ((View.whole main_v11).slice (win3_3.rect t)).set ↔ _
  rw [View.set_slice_whole, Rect.mem_set_unit]
  exact Iff.rfl

/-- The covered indices: exactly the channels from 2048 up. -/
theorem covered3 (i : S8x4096x1024.Idx) :
    (∃ t : Fin cfg3.N, (cfg3.win 3).flush t = true ∧ i ∈ ((cfg3.win 3).blk t).view.set) ↔ 2048 ≤ (i 1).val := by
  have hi0 : (i 0).val < 8 := (i 0).isLt
  have hi1 : (i 1).val < 4096 := (i 1).isLt
  have hi2 : (i 2).val < 1024 := (i 2).isLt
  constructor
  · rintro ⟨t, -, hi⟩
    rw [mem_blk3_3] at hi
    have b1 : win3_3.index t (1 : Fin 3) * 128 ≤ (i 1).val ∧ (i 1).val < win3_3.index t (1 : Fin 3) * 128 + 128 := hi 1
    obtain ⟨-, -, -, -, -, -, -, d0, d1, d2, ht⟩ := idx3 t
    omega
  · intro h
    obtain ⟨t, ht⟩ := onto3 ⟨((i 1).val - 2048) / 128, by omega⟩
    have ht' : t.val = ((i 1).val - 2048) / 128 := ht
    obtain ⟨-, -, -, -, -, -, -, d0, d1, d2, -⟩ := idx3 t
    refine ⟨t, flush3_3 t, ?_⟩
    rw [mem_blk3_3]
    intro a
    match a with
    | ⟨0, _⟩ => show win3_3.index t (0 : Fin 3) * 8 ≤ (i 0).val ∧ (i 0).val < win3_3.index t (0 : Fin 3) * 8 + 8; omega
    | ⟨1, _⟩ => show win3_3.index t (1 : Fin 3) * 128 ≤ (i 1).val ∧ (i 1).val < win3_3.index t (1 : Fin 3) * 128 + 128; omega
    | ⟨2, _⟩ => show win3_3.index t (2 : Fin 3) * 1024 ≤ (i 2).val ∧ (i 2).val < win3_3.index t (2 : Fin 3) * 1024 + 1024; omega

/-- The array after the launch: the function from channel 2048 up, the entry contents below. -/
theorem final3_3 (c : Dev nD) (i : S8x4096x1024.Idx) :
    (dat3 V c).arrAt 3 cfg3.N i
      = if 2048 ≤ (i 1).val then out2Arr (V c main_v1) (V c main_v2_0) (V c main_v9) i else V c main_v11 i := by
  rw [(dat3 V c).arrAt_eq_piecewise 3 _ (fun t _ => flushed3_3 V c t) i, A_eq3]
  exact if_congr (covered3 i) rfl rfl

end Cert.KernelIdeal.Val

end
-- ==== Proof.Chain.lean ====
/-
  The kernel program's buffers, walked from the launch memory to the return.  Between the four launches the host only
  re-lays arrays: the two embeddings are flattened to E1, E2 [8, 2048, 1024]; the two pooled tables are joined along the
  channels and transposed to Y [8, 4096]; the gate [8, 4096] is cut into its two channel halves, each transposed to
  (channel, batch); the third launch's result is copied into the fourth's, which overwrites the upper channel half; the result
  is unflattened.  Each buffer a later launch reads is carried through the stretches and launches that do not write it, and
  every launch's arrays are the functions of Reg0 … Reg3 of what it found.
-/
import proofs.«162184_j68135361184293_1_alg».proof.Proof.Gen.KernelIdeal.Frame
import proofs.«162184_j68135361184293_1_alg».proof.Proof.Reg0
import proofs.«162184_j68135361184293_1_alg».proof.Proof.Reg1
import proofs.«162184_j68135361184293_1_alg».proof.Proof.Reg2
import proofs.«162184_j68135361184293_1_alg».proof.Proof.Reg3
import Idealize.ShloMosaic.Lib.StableHlo.Run

noncomputable section

open scoped BigOperators

namespace Cert.KernelIdeal.Val

open Cert.KernelIdeal Cert.KernelIdeal.Gen Cert.Fuse
open Idealize.ShloMosaic Idealize.ShloMosaic.TcCoe Idealize.SL.Sem Idealize.ShloMosaic.ValueIdx
open Idealize.ShloMosaic.Pipeline (Dat Cfg Window)
open Idealize.ShloMosaic.StableHlo

/-- A host stretch leaves a buffer none of its operations writes. -/
macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-- The flattened embeddings, the pooled values, the gate and its two transposed halves, as functions of the arguments. -/
def flat (x : S8x2048x32x32.Idx → EReal) : S8x2048x1024.Idx → EReal := shapeCast S8x2048x1024 x shapeCasts_S8x2048x32x32_S8x2048x1024
def pooled (x0 x1 : S8x2048x32x32.Idx → EReal) : S8x4096.Idx → EReal :=
  transpose S8x4096 [1, 0] (concatenate S4096x8 0 [⟨S2048x8, poolT1 (flat x0) (flat x1)⟩, ⟨S2048x8, poolT2 (flat x0) (flat x1)⟩]
    concatenates_S2048x8_S2048x8_S4096x8_d0) transposes_S4096x8_S8x4096_1_0
def gateLo (G : S8x4096.Idx → EReal) : S2048x8.Idx → EReal :=
  transpose S2048x8 [1, 0] (extractStridedSlice S8x2048 ![0, 0] G slices_S8x4096_S8x2048_0_0) transposes_S8x2048_S2048x8_1_0
def gateHi (G : S8x4096.Idx → EReal) : S2048x8.Idx → EReal :=
  transpose S2048x8 [1, 0] (extractStridedSlice S8x2048 ![0, 2048] G slices_S8x4096_S8x2048_0_2048) transposes_S8x2048_S2048x8_1_0

/-! ## Before and through the first launch -/

theorem V1_v0 : V1 m ρ c main_v0 = flat (m ((c : Thread nD τ).loc main_arg0)) := by
  show StableHlo.after hostOps0 (W0 m ρ c) (Proc.devRef .tc main_v0) = _
  after_results; rfl
theorem V1_v1 : V1 m ρ c main_v1 = flat (m ((c : Thread nD τ).loc main_arg1)) := by
  show StableHlo.after hostOps0 (W0 m ρ c) (Proc.devRef .tc main_v1) = _
  after_results; rfl
theorem W1_arg2 : W1 m ρ c (Proc.devRef .tc main_arg2) = (m ((c : Thread nD τ).loc main_arg2)) := by
  show StableHlo.after hostOps0 (W0 m ρ c) (Proc.devRef .tc main_arg2) = W0 m ρ c (Proc.devRef .tc main_arg2)
  host_keeps hostOps0
theorem W1_arg3 : W1 m ρ c (Proc.devRef .tc main_arg3) = (m ((c : Thread nD τ).loc main_arg3)) := by
  show StableHlo.after hostOps0 (W0 m ρ c) (Proc.devRef .tc main_arg3) = W0 m ρ c (Proc.devRef .tc main_arg3)
  host_keeps hostOps0

theorem W2_v0 : W2 m ρ c (Proc.devRef .tc main_v0) = flat (m ((c : Thread nD τ).loc main_arg0)) :=
  ((W2_arr m ρ c 0).trans (((dat0 (V1 m ρ) c).arrAt_in 0 rfl _).trans (A_eq0 (V1 m ρ) c 0))).trans (V1_v0 m ρ c)
theorem W2_v1 : W2 m ρ c (Proc.devRef .tc main_v1) = flat (m ((c : Thread nD τ).loc main_arg1)) :=
  ((W2_arr m ρ c 1).trans (((dat0 (V1 m ρ) c).arrAt_in 1 rfl _).trans (A_eq0 (V1 m ρ) c 1))).trans (V1_v1 m ρ c)
theorem W2_v2_0 : W2 m ρ c (Proc.devRef .tc main_v2_0) = meanT (flat (m ((c : Thread nD τ).loc main_arg0))) :=
  ((W2_arr m ρ c 2).trans (final0_2 (V1 m ρ) c)).trans (congrArg meanT (V1_v0 m ρ c))
theorem W2_v2_1 : W2 m ρ c (Proc.devRef .tc main_v2_1) = meanT (flat (m ((c : Thread nD τ).loc main_arg1))) :=
  ((W2_arr m ρ c 3).trans (final0_3 (V1 m ρ) c)).trans (congrArg meanT (V1_v1 m ρ c))
theorem W2_v2_2 : W2 m ρ c (Proc.devRef .tc main_v2_2) = poolT1 (flat (m ((c : Thread nD τ).loc main_arg0))) (flat (m ((c : Thread nD τ).loc main_arg1))) :=
  ((W2_arr m ρ c 4).trans (final0_4 (V1 m ρ) c)).trans (congrArg₂ poolT1 (V1_v0 m ρ c) (V1_v1 m ρ c))
theorem W2_v2_3 : W2 m ρ c (Proc.devRef .tc main_v2_3) = poolT2 (flat (m ((c : Thread nD τ).loc main_arg0))) (flat (m ((c : Thread nD τ).loc main_arg1))) :=
  ((W2_arr m ρ c 5).trans (final0_5 (V1 m ρ) c)).trans (congrArg₂ poolT2 (V1_v0 m ρ c) (V1_v1 m ρ c))
theorem W2_arg2 : W2 m ρ c (Proc.devRef .tc main_arg2) = (m ((c : Thread nD τ).loc main_arg2)) := (W2_of_ne m ρ c main_arg2 (by decide)).trans (W1_arg2 m ρ c)
theorem W2_arg3 : W2 m ρ c (Proc.devRef .tc main_arg3) = (m ((c : Thread nD τ).loc main_arg3)) := (W2_of_ne m ρ c main_arg3 (by decide)).trans (W1_arg3 m ρ c)

/-! ## To and through the second launch -/

theorem V3_v4 : V3 m ρ c main_v4 = pooled (m ((c : Thread nD τ).loc main_arg0)) (m ((c : Thread nD τ).loc main_arg1)) := by
  show StableHlo.after hostOps1 (W2 m ρ c) (Proc.devRef .tc main_v4) = _
  after_results
  rw [W2_v2_2, W2_v2_3]
  rfl
theorem W3_keep (b : Ref sig .tc) (h3 : b ≠ main_v3) (h4 : b ≠ main_v4) :
    W3 m ρ c (Proc.devRef .tc b) = W2 m ρ c (Proc.devRef .tc b) :=
  StableHlo.after_of_forall_not_mem _ _ (List.forall_iff_forall_mem.mp (by
    simp only [hostOps1, List.Forall, StableHlo.unary_writes, StableHlo.binary_writes, Finset.mem_singleton]
    exact ⟨StableHlo.devRef_ne_of_ne h3, StableHlo.devRef_ne_of_ne h4⟩))
theorem V3_arg2 : V3 m ρ c main_arg2 = (m ((c : Thread nD τ).loc main_arg2)) := (W3_keep m ρ c main_arg2 (by decide) (by decide)).trans (W2_arg2 m ρ c)
theorem V3_arg3 : V3 m ρ c main_arg3 = (m ((c : Thread nD τ).loc main_arg3)) := (W3_keep m ρ c main_arg3 (by decide) (by decide)).trans (W2_arg3 m ρ c)

/-- The gate array as a function of the arguments. -/
def gateOf (x0' x1' : S8x2048x32x32.Idx → EReal) (w1 : S256x4096.Idx → EReal) (w2 : S4096x256.Idx → EReal) : S8x4096.Idx → EReal :=
  gateArr (pooled x0' x1') w1 w2

theorem W4_v5 : W4 m ρ c (Proc.devRef .tc main_v5) = gateOf (m ((c : Thread nD τ).loc main_arg0)) (m ((c : Thread nD τ).loc main_arg1)) (m ((c : Thread nD τ).loc main_arg2)) (m ((c : Thread nD τ).loc main_arg3)) := by
  refine ((W4_arr m ρ c 3).trans (final1_3 (V3 m ρ) c)).trans ?_
  rw [V3_v4, V3_arg2, V3_arg3]
  rfl
theorem W4_keep (b : Ref sig .tc) (h : ∀ w, Pipeline.arrRef spec1 w ≠ b) (h3 : b ≠ main_v3) (h4 : b ≠ main_v4) :
    W4 m ρ c (Proc.devRef .tc b) = W2 m ρ c (Proc.devRef .tc b) :=
  (W4_of_ne m ρ c b h).trans (W3_keep m ρ c b h3 h4)

/-! ## To and through the third launch -/

theorem W5_keep (b : Ref sig .tc) (h6 : b ≠ main_v6) (h7 : b ≠ main_v7) (h8 : b ≠ main_v8) (h9 : b ≠ main_v9) :
    W5 m ρ c (Proc.devRef .tc b) = W4 m ρ c (Proc.devRef .tc b) :=
  StableHlo.after_of_forall_not_mem _ _ (List.forall_iff_forall_mem.mp (by
    simp only [hostOps2, List.Forall, StableHlo.unary_writes, Finset.mem_singleton]
    exact ⟨StableHlo.devRef_ne_of_ne h6, StableHlo.devRef_ne_of_ne h7, StableHlo.devRef_ne_of_ne h8, StableHlo.devRef_ne_of_ne h9⟩))

theorem V5_v7 : V5 m ρ c main_v7 = gateLo (gateOf (m ((c : Thread nD τ).loc main_arg0)) (m ((c : Thread nD τ).loc main_arg1)) (m ((c : Thread nD τ).loc main_arg2)) (m ((c : Thread nD τ).loc main_arg3))) := by
  show StableHlo.after hostOps2 (W4 m ρ c) (Proc.devRef .tc main_v7) = _
  after_results
  rw [W4_v5]
  rfl
theorem V5_v9 : V5 m ρ c main_v9 = gateHi (gateOf (m ((c : Thread nD τ).loc main_arg0)) (m ((c : Thread nD τ).loc main_arg1)) (m ((c : Thread nD τ).loc main_arg2)) (m ((c : Thread nD τ).loc main_arg3))) := by
  show StableHlo.after hostOps2 (W4 m ρ c) (Proc.devRef .tc main_v9) = _
  after_results
  rw [W4_v5]
  rfl
theorem V5_v0 : V5 m ρ c main_v0 = flat (m ((c : Thread nD τ).loc main_arg0)) :=
  ((W5_keep m ρ c main_v0 (by decide) (by decide) (by decide) (by decide)).trans
    (W4_keep m ρ c main_v0 (by decide) (by decide) (by decide))).trans (W2_v0 m ρ c)
theorem V5_v1 : V5 m ρ c main_v1 = flat (m ((c : Thread nD τ).loc main_arg1)) :=
  ((W5_keep m ρ c main_v1 (by decide) (by decide) (by decide) (by decide)).trans
    (W4_keep m ρ c main_v1 (by decide) (by decide) (by decide))).trans (W2_v1 m ρ c)
theorem V5_v2_0 : V5 m ρ c main_v2_0 = meanT (flat (m ((c : Thread nD τ).loc main_arg0))) :=
  ((W5_keep m ρ c main_v2_0 (by decide) (by decide) (by decide) (by decide)).trans
    (W4_keep m ρ c main_v2_0 (by decide) (by decide) (by decide))).trans (W2_v2_0 m ρ c)
theorem V5_v2_1 : V5 m ρ c main_v2_1 = meanT (flat (m ((c : Thread nD τ).loc main_arg1))) :=
  ((W5_keep m ρ c main_v2_1 (by decide) (by decide) (by decide) (by decide)).trans
    (W4_keep m ρ c main_v2_1 (by decide) (by decide) (by decide))).trans (W2_v2_1 m ρ c)

theorem W6_v10 (i : S8x4096x1024.Idx) :
    W6 m ρ c (Proc.devRef .tc main_v10) i
      = if (i 1).val < 2048 then out1Arr (flat (m ((c : Thread nD τ).loc main_arg0))) (meanT (flat (m ((c : Thread nD τ).loc main_arg1)))) (gateLo (gateOf (m ((c : Thread nD τ).loc main_arg0)) (m ((c : Thread nD τ).loc main_arg1)) (m ((c : Thread nD τ).loc main_arg2)) (m ((c : Thread nD τ).loc main_arg3)))) i else V5 m ρ c main_v10 i := by
  refine ((congrFun (W6_arr m ρ c 3) i).trans (final2_3 (V5 m ρ) c i)).trans ?_
  rw [V5_v0, V5_v2_1, V5_v7]

/-! ## To and through the fourth launch -/

theorem W7_keep (b : Ref sig .tc) (h : b ≠ main_v11) : W7 m ρ c (Proc.devRef .tc b) = W6 m ρ c (Proc.devRef .tc b) :=
  StableHlo.after_of_forall_not_mem _ _ (List.forall_iff_forall_mem.mp (by
    simp only [hostOps3, List.Forall, StableHlo.unary_writes, Finset.mem_singleton]
    exact StableHlo.devRef_ne_of_ne h))

theorem V7_v11 : V7 m ρ c main_v11 = W6 m ρ c (Proc.devRef .tc main_v10) := by
  show StableHlo.after hostOps3 (W6 m ρ c) (Proc.devRef .tc main_v11) = _
  after_results
  rfl
theorem V7_v1 : V7 m ρ c main_v1 = flat (m ((c : Thread nD τ).loc main_arg1)) :=
  ((W7_keep m ρ c main_v1 (by decide)).trans (W6_of_ne m ρ c main_v1 (by decide))).trans (V5_v1 m ρ c)
theorem V7_v2_0 : V7 m ρ c main_v2_0 = meanT (flat (m ((c : Thread nD τ).loc main_arg0))) :=
  ((W7_keep m ρ c main_v2_0 (by decide)).trans (W6_of_ne m ρ c main_v2_0 (by decide))).trans (V5_v2_0 m ρ c)
theorem V7_v9 : V7 m ρ c main_v9 = gateHi (gateOf (m ((c : Thread nD τ).loc main_arg0)) (m ((c : Thread nD τ).loc main_arg1)) (m ((c : Thread nD τ).loc main_arg2)) (m ((c : Thread nD τ).loc main_arg3))) :=
  ((W7_keep m ρ c main_v9 (by decide)).trans (W6_of_ne m ρ c main_v9 (by decide))).trans (V5_v9 m ρ c)

theorem W8_v11 (i : S8x4096x1024.Idx) :
    W8 m ρ c (Proc.devRef .tc main_v11) i
      = if 2048 ≤ (i 1).val then out2Arr (flat (m ((c : Thread nD τ).loc main_arg1))) (meanT (flat (m ((c : Thread nD τ).loc main_arg0)))) (gateHi (gateOf (m ((c : Thread nD τ).loc main_arg0)) (m ((c : Thread nD τ).loc main_arg1)) (m ((c : Thread nD τ).loc main_arg2)) (m ((c : Thread nD τ).loc main_arg3)))) i
        else W6 m ρ c (Proc.devRef .tc main_v10) i := by
  refine ((congrFun (W8_arr m ρ c 3) i).trans (final3_3 (V7 m ρ) c i)).trans ?_
  rw [V7_v1, V7_v2_0, V7_v9, V7_v11]

/-- The result buffer at the return: the fourth launch's array, unflattened. -/
theorem W9_v12 : W9 m ρ c (Proc.devRef .tc main_v12)
    = shapeCast S8x4096x32x32 (W8 m ρ c (Proc.devRef .tc main_v11)) shapeCasts_S8x4096x1024_S8x4096x32x32 := by
  show StableHlo.after hostOps4 (W8 m ρ c) (Proc.devRef .tc main_v12) = _
  after_results
  rfl

end Cert.KernelIdeal.Val

end
-- ==== Proof.Flatten.lean ====
/-
  Flattening the 32 × 32 image of a (batch, channel) into a row of 1024 and back: position j is (j / 32, j % 32).
  A [8, 2048, 32, 32] array flattened to [8, 2048, 1024] reads, at (b, c, j), the entry (b, c, j / 32, j % 32); an
  [8, 4096, 1024] array unflattened reads, at (b, ch, h, w), the entry (b, ch, 32h + w); and the sum over the two image
  axes of an [8, 4096, 32, 32] array at (b, ch) is the sum over the 1024 positions of the row.
-/
import proofs.«162184_j68135361184293_1_alg».proof.Proof.BlockOps
import Idealize.ShloMosaic.PureOps.Reduce
import Idealize.ShloMosaic.Lib.Pipeline.Value

noncomputable section

open scoped BigOperators

namespace Cert.Fuse

open Idealize.ShloMosaic Idealize.ShloMosaic.ValueIdx

theorem hOf_posOf (h w : Fin 32) : hOf (posOf h w) = h :=
  Fin.ext (by show (h.val * 32 + w.val) / 32 = h.val; have := w.isLt; omega)
theorem wOf_posOf (h w : Fin 32) : wOf (posOf h w) = w :=
  Fin.ext (by show (h.val * 32 + w.val) % 32 = w.val; have := w.isLt; omega)
theorem posOf_hw (j : Fin 1024) : posOf (hOf j) (wOf j) = j :=
  Fin.ext (by show j.val / 32 * 32 + j.val % 32 = j.val; omega)

theorem flat_apply (x : (⟨4, ![8, 2048, 32, 32]⟩ : Shape).Idx → EReal)
    (h : (⟨4, ![8, 2048, 32, 32]⟩ : Shape).ShapeCasts ⟨3, ![8, 2048, 1024]⟩) (b : Fin 8) (c : Fin 2048) (j : Fin 1024) :
    shapeCast ⟨3, ![8, 2048, 1024]⟩ x h (ix3 b c j) = x (ix4 b c (hOf j) (wOf j)) :=
  shapeCast_apply x h _ _ (by
    rw [Shape.rowMajor_val_four, Shape.rowMajor_val_three]
    show ((b.val * 2048 + c.val) * 32 + j.val / 32) * 32 + j.val % 32 = (b.val * 2048 + c.val) * 1024 + j.val
    omega)

theorem row3_flat (x : (⟨4, ![8, 2048, 32, 32]⟩ : Shape).Idx → EReal)
    (h : (⟨4, ![8, 2048, 32, 32]⟩ : Shape).ShapeCasts ⟨3, ![8, 2048, 1024]⟩) (b : Fin 8) (c : Fin 2048) :
    row3 (shapeCast ⟨3, ![8, 2048, 1024]⟩ x h) b c = row4 x b c :=
  funext fun j => flat_apply x h b c j

theorem unflat_apply (X : (⟨3, ![8, 4096, 1024]⟩ : Shape).Idx → EReal)
    (h : (⟨3, ![8, 4096, 1024]⟩ : Shape).ShapeCasts ⟨4, ![8, 4096, 32, 32]⟩) (b : Fin 8) (ch : Fin 4096) (hh w : Fin 32) :
    shapeCast ⟨4, ![8, 4096, 32, 32]⟩ X h (ix4 b ch hh w) = X (ix3 b ch (posOf hh w)) :=
  shapeCast_apply X h _ _ (by
    rw [Shape.rowMajor_val_three, Shape.rowMajor_val_four]
    show (b.val * 4096 + ch.val) * 1024 + (hh.val * 32 + w.val) = ((b.val * 4096 + ch.val) * 32 + hh.val) * 32 + w.val
    omega)

/-- The entries of an [8, 4096, 32, 32] array whose (batch, channel) is (b, ch) are the 1024 positions of that row. -/
theorem sum_hw (h' : (⟨4, ![8, 4096, 32, 32]⟩ : Shape).ReducesTo [2, 3] ⟨2, ![8, 4096]⟩)
    (x : (⟨4, ![8, 4096, 32, 32]⟩ : Shape).Idx → EReal) (b : Fin 8) (ch : Fin 4096) :
    ∑ i ∈ Finset.univ.filter (fun i => h'.drop i = ix2 b ch), x i = ∑ j : Fin 1024, x (ix4 b ch (hOf j) (wOf j)) := by
  symm
  refine Finset.sum_bij (fun j _ => ix4 b ch (hOf j) (wOf j)) (fun j _ => ?_) (fun j _ j' _ e => ?_) (fun i hi => ?_) (fun _ _ => rfl)
  · refine Finset.mem_filter.mpr ⟨Finset.mem_univ _, funext fun a => Fin.ext ?_⟩
    match a with
    | ⟨0, _⟩ => exact h'.drop_apply_val_of_eq _ 0 0
    | ⟨1, _⟩ => exact h'.drop_apply_val_of_eq _ 1 1
  · have e2 : j.val / 32 = j'.val / 32 := congrArg (fun i : (⟨4, ![8, 4096, 32, 32]⟩ : Shape).Idx => (i 2).val) e
    have e3 : j.val % 32 = j'.val % 32 := congrArg (fun i : (⟨4, ![8, 4096, 32, 32]⟩ : Shape).Idx => (i 3).val) e
    exact Fin.ext (by omega)
  · have hd := (Finset.mem_filter.mp hi).2
    have h0 : (i 0).val = b.val := (h'.drop_apply_val_of_eq i 0 0).symm.trans (congrArg (fun k : (⟨2, ![8, 4096]⟩ : Shape).Idx => (k 0).val) hd)
    have h1 : (i 1).val = ch.val := (h'.drop_apply_val_of_eq i 1 1).symm.trans (congrArg (fun k : (⟨2, ![8, 4096]⟩ : Shape).Idx => (k 1).val) hd)
    have e2 : hOf (posOf (⟨(i 2).val, (i 2).isLt⟩ : Fin 32) (⟨(i 3).val, (i 3).isLt⟩ : Fin 32)) = (⟨(i 2).val, (i 2).isLt⟩ : Fin 32) := hOf_posOf _ _
    have e3 : wOf (posOf (⟨(i 2).val, (i 2).isLt⟩ : Fin 32) (⟨(i 3).val, (i 3).isLt⟩ : Fin 32)) = (⟨(i 3).val, (i 3).isLt⟩ : Fin 32) := wOf_posOf _ _
    refine ⟨posOf (⟨(i 2).val, (i 2).isLt⟩ : Fin 32) (⟨(i 3).val, (i 3).isLt⟩ : Fin 32), Finset.mem_univ _, ?_⟩
    rw [e2, e3]
    funext a
    apply Fin.ext
    match a with
    | ⟨0, _⟩ => exact h0.symm
    | ⟨1, _⟩ => exact h1.symm
    | ⟨2, _⟩ => rfl
    | ⟨3, _⟩ => rfl

end Cert.Fuse

end
-- ==== Proof.KernelValue.lean ====
/-
  The kernel program's result as one function of the arguments.  The result buffer is the fourth launch's array
  unflattened; at channel ch ≥ 2048 that array holds the fourth launch's value, below it the third launch's, kept through
  the copy.  Opening the host's re-layings — the pooled values Y(b, k) are the pooled tables read at (k, b), channel k of the
  joined table being the first table's for k < 2048 and the second's row k − 2048 above; the gate halves read at (q, b) are
  the gate at (b, q) and (b, q + 2048) — every entry is  gated row · (1 + gate)  of the embeddings' rows.
-/
import proofs.«162184_j68135361184293_1_alg».proof.Proof.Chain
import proofs.«162184_j68135361184293_1_alg».proof.Proof.Flatten

noncomputable section

open scoped BigOperators

namespace Cert.KernelIdeal.Val

open Cert.KernelIdeal Cert.KernelIdeal.Gen Cert.Fuse
open Idealize.ShloMosaic Idealize.ShloMosaic.TcCoe Idealize.SL.Sem Idealize.ShloMosaic.ValueIdx
open Idealize.ShloMosaic.Pipeline (Dat Cfg Window)

/-- A transposed channel half of the gate, read at (channel, batch). -/
theorem gateLo_apply (G : S8x4096.Idx → EReal) (q : Fin 2048) (b : Fin 8) (hq : q.val < 4096) :
    gateLo G (ix2 q b) = G (ix2 b (⟨q.val, hq⟩ : Fin 4096)) := by
  unfold gateLo
  refine (transpose_apply [1, 0] _ transposes_S8x2048_S2048x8_1_0 (ix2 q b) (ix2 b q)
    (fun a => by match a with | ⟨0, _⟩ => rfl | ⟨1, _⟩ => rfl)).trans ?_
  exact extractStridedSlice_apply ![0, 0] G slices_S8x4096_S8x2048_0_0 (ix2 b q) (ix2 b (⟨q.val, hq⟩ : Fin 4096))
    (fun a => by match a with | ⟨0, _⟩ => show b.val = 0 + b.val; omega | ⟨1, _⟩ => show q.val = 0 + q.val; omega)

theorem gateHi_apply (G : S8x4096.Idx → EReal) (q : Fin 2048) (b : Fin 8) (hq : q.val + 2048 < 4096) :
    gateHi G (ix2 q b) = G (ix2 b (⟨q.val + 2048, hq⟩ : Fin 4096)) := by
  unfold gateHi
  refine (transpose_apply [1, 0] _ transposes_S8x2048_S2048x8_1_0 (ix2 q b) (ix2 b q)
    (fun a => by match a with | ⟨0, _⟩ => rfl | ⟨1, _⟩ => rfl)).trans ?_
  exact extractStridedSlice_apply ![0, 2048] G slices_S8x4096_S8x2048_0_2048 (ix2 b q) (ix2 b (⟨q.val + 2048, hq⟩ : Fin 4096))
    (fun a => by match a with | ⟨0, _⟩ => show b.val = 0 + b.val; omega | ⟨1, _⟩ => show q.val + 2048 = 2048 + q.val; omega)

variable (x0 x1 : S8x2048x32x32.Idx → EReal) (w1 : S256x4096.Idx → EReal) (w2 : S4096x256.Idx → EReal)

/-- The pooled value of (batch b, channel k) is the mean of that channel's gated row. -/
theorem pooled_apply (b : Fin 8) (k : Fin 4096) : pooled x0 x1 (ix2 b k) = mean (embK x0 x1 b k) := by
  unfold pooled
  refine (transpose_apply [1, 0] _ transposes_S4096x8_S8x4096_1_0 (ix2 b k) (ix2 k b)
    (fun a => by match a with | ⟨0, _⟩ => rfl | ⟨1, _⟩ => rfl)).trans ?_
  by_cases hlt : k.val < 2048
  · refine (concatenate_pair_apply_left (0 : Fin 2) (poolT1 (flat x0) (flat x1)) (poolT2 (flat x0) (flat x1))
      concatenates_S2048x8_S2048x8_S4096x8_d0 (ix2 k b) rfl (ix2 (loCh k hlt) b)
      (fun a => by match a with | ⟨0, _⟩ => rfl | ⟨1, _⟩ => rfl)).trans ?_
    show mean (gateK1 (row3 (flat x0) b (loCh k hlt)) (row3 (flat x1) b (loCh k hlt))) = _
    unfold flat embK
    rw [row3_flat, row3_flat, dif_pos hlt]
  · refine (concatenate_pair_apply_right (0 : Fin 2) (poolT1 (flat x0) (flat x1)) (poolT2 (flat x0) (flat x1))
      concatenates_S2048x8_S2048x8_S4096x8_d0 (ix2 k b) rfl rfl (ix2 (hiCh k hlt) b)
      (fun a ha => by match a with | ⟨0, _⟩ => exact absurd rfl ha | ⟨1, _⟩ => rfl)
      (by show k.val - 2048 + 2048 = k.val; omega)).trans ?_
    show mean (gateK2 (row3 (flat x0) b (hiCh k hlt)) (row3 (flat x1) b (hiCh k hlt))) = _
    unfold flat embK
    rw [row3_flat, row3_flat, dif_neg hlt]

/-- The gate array at (b, ch) is the gate of the pooled values. -/
theorem gateOf_apply (b : Fin 8) (ch : Fin 4096) :
    gateOf x0 x1 w1 w2 (ix2 b ch) = gate w1 w2 (fun b k => mean (embK x0 x1 b k)) b ch := by
  show gate w1 w2 (fun b k => pooled x0 x1 (ix2 b k)) b ch = _
  exact congrArg (fun y => gate w1 w2 y b ch) (funext fun b => funext fun k => pooled_apply x0 x1 b k)

/-- The lower channel half of the result. -/
theorem lower_apply (b : Fin 8) (ch : Fin 4096) (j : Fin 1024) (hlt : ch.val < 2048) :
    out1Arr (flat x0) (meanT (flat x1)) (gateLo (gateOf x0 x1 w1 w2)) (ix3 b ch j)
      = embK x0 x1 b ch j * (wOne + gate w1 w2 (fun b k => mean (embK x0 x1 b k)) b ch) := by
  rw [out1Arr_lo _ _ _ b ch j hlt, gateLo_apply _ _ b ch.isLt, gateOf_apply]
  show scaled1 (row3 (flat x0) b ⟨ch.val, hlt⟩) (mean (row3 (flat x1) b ⟨ch.val, hlt⟩)) j * _ = _
  unfold flat embK
  rw [row3_flat, row3_flat, dif_pos hlt]
  rfl

/-- The upper channel half of the result. -/
theorem upper_apply (b : Fin 8) (ch : Fin 4096) (j : Fin 1024) (hge : 2048 ≤ ch.val) :
    out2Arr (flat x1) (meanT (flat x0)) (gateHi (gateOf x0 x1 w1 w2)) (ix3 b ch j)
      = embK x0 x1 b ch j * (wOne + gate w1 w2 (fun b k => mean (embK x0 x1 b k)) b ch) := by
  have hlt : ¬ ch.val < 2048 := by omega
  have hq : (hiIdx ch.val ch.isLt hge).val + 2048 < 4096 := by show ch.val - 2048 + 2048 < 4096; have := ch.isLt; omega
  have hch : (⟨(hiIdx ch.val ch.isLt hge).val + 2048, hq⟩ : Fin 4096) = ch := Fin.ext (by show ch.val - 2048 + 2048 = ch.val; omega)
  rw [out2Arr_hi _ _ _ b ch j hge, gateHi_apply _ _ b hq, hch, gateOf_apply]
  show scaled2 (row3 (flat x1) b (hiIdx ch.val ch.isLt hge)) (mean (row3 (flat x0) b (hiIdx ch.val ch.isLt hge))) j * _ = _
  unfold flat embK
  rw [row3_flat, row3_flat, dif_neg hlt]
  rfl

variable (m : (ℓ : Loc nD τ sig) → Buf (Elt Ideal) ℓ) (ρ : Dev nD → PrngReg) (c : Dev nD)

/-- The result buffer at the return, as a function of the four arguments. -/
theorem kernel_value :
    W9 m ρ c (Proc.devRef .tc main_v12)
      = outK (m ((c : Thread nD τ).loc main_arg0)) (m ((c : Thread nD τ).loc main_arg1)) (m ((c : Thread nD τ).loc main_arg2)) (m ((c : Thread nD τ).loc main_arg3)) := by
  rw [W9_v12]
  funext i
  obtain ⟨b, ch, h, w, rfl⟩ : ∃ (b : Fin 8) (ch : Fin 4096) (h w : Fin 32), i = ix4 b ch h w := ⟨i 0, i 1, i 2, i 3, eq_ix4 i⟩
  rw [unflat_apply, W8_v11]
  show (if 2048 ≤ ch.val then _ else _) = _
  by_cases hge : 2048 ≤ ch.val
  · rw [if_pos hge, upper_apply _ _ _ _ b ch _ hge]
    rfl
  · have hlt : ch.val < 2048 := by omega
    rw [if_neg hge, W6_v10]
    show (if ch.val < 2048 then _ else _) = _
    rw [if_pos hlt, lower_apply _ _ _ _ b ch _ hlt]
    rfl

end Cert.KernelIdeal.Val

end
-- ==== Proof.RefRows.lean ====
/-
  The reference program's stages on the flattened embeddings R0, R1 [8, 2048, 1024], read at an index, one row at a time:
  the row maximum (the reduce from −∞, joined once more with −∞), the shifted exponentials, their sum (from zero), the
  softmax, the row mean; then the two gated embeddings x·inner + x formed on the [8, 2048, 32, 32] arrays, whose entry
  (b, c, h, w) is position 32h + w of row (b, c).
-/
import proofs.«162184_j68135361184293_1_alg».proof.Proof.RefReadP
import proofs.«162184_j68135361184293_1_alg».proof.Proof.Flatten
import proofs.«162184_j68135361184293_1_alg».proof.Proof.LibLastAxis

noncomputable section

open scoped BigOperators

namespace Cert.ReferenceIdeal.RefValue

open Cert.ReferenceIdeal Cert.ReferenceIdeal.Gen Cert.ReferenceIdeal.ReadP Cert.Fuse Cert.Lib.LastAxis
open Idealize.ShloMosaic Idealize.ShloMosaic.ValueIdx

variable (x0 x1 : (⟨S8x2048x32x32, .f32⟩ : BufTy).Contents (Elt Ideal))

/-! ### The softmax of the first embedding's rows -/

theorem iv5_v6 (b : Fin 8) (c : Fin 2048) (j : Fin 1024) : idx_main_v5 (idx_main_v6 (ix3 b c j)) = ix2 b c := funext fun a => Fin.ext (by match a with | ⟨0, _⟩ => rfl | ⟨1, _⟩ => rfl)
theorem iv9 (b : Fin 8) (c : Fin 2048) (k : Fin 1024) : idx_main_v9 (ix2 b c) k = ix3 b c k := funext fun a => Fin.ext (by match a with | ⟨0, _⟩ => rfl | ⟨1, _⟩ => rfl | ⟨2, _⟩ => rfl)
theorem iv10_v11 (b : Fin 8) (c : Fin 2048) (j : Fin 1024) : idx_main_v10 (idx_main_v11 (ix3 b c j)) = ix2 b c := funext fun a => Fin.ext (by match a with | ⟨0, _⟩ => rfl | ⟨1, _⟩ => rfl)

theorem rmax0 (b : Fin 8) (c : Fin 2048) (j : Fin 1024) :
    val_main_v6 (F := Ideal) x0 (ix3 b c j) = rowMax (row3 (val_main_v0 (F := Ideal) x0) b c) := by
  rw [val_main_v6_apply, val_main_v5_apply, val_main_v4_apply, iv5_v6]
  have h3 : val_main_v3 (F := Ideal) (ix2 b c) = wNegInf := by rw [val_main_v3_apply]; rfl
  have h2 : val_main_v2 (F := Ideal) x0 (ix2 b c) = rowMax (row3 (val_main_v0 (F := Ideal) x0) b c) := by
    unfold val_main_v2
    exact hostReduce_last (FloatOps.maximumf (F := Ideal)) reducesTo_S8x2048x1024_S8x2048_d2 (by decide) _ _ h_S_ b c
  rw [h3, h2]
  show max wNegInf _ = _
  rw [wNegInf_eq]
  exact max_bot_left _

theorem rexp0 (b : Fin 8) (c : Fin 2048) (j : Fin 1024) :
    val_main_v8 (F := Ideal) x0 (ix3 b c j) = rowExp (row3 (val_main_v0 (F := Ideal) x0) b c) j := by
  rw [val_main_v8_apply, val_main_v7_apply, rmax0]
  rfl

theorem rsum0 (b : Fin 8) (c : Fin 2048) :
    val_main_v9 (F := Ideal) x0 (ix2 b c) = ∑ k, rowExp (row3 (val_main_v0 (F := Ideal) x0) b c) k := by
  rw [val_main_v9_apply]
  show wZero + _ = _
  rw [wZero_eq, zero_add]
  exact Finset.sum_congr rfl fun k _ => by rw [iv9]; exact rexp0 x0 b c k

theorem rsm0 (b : Fin 8) (c : Fin 2048) (j : Fin 1024) :
    val_main_v12 (F := Ideal) x0 (ix3 b c j) = softmax (row3 (val_main_v0 (F := Ideal) x0) b c) j := by
  rw [val_main_v12_apply, val_main_v11_apply, val_main_v10_apply, iv10_v11, rexp0, rsum0]
  rfl

theorem iv24 (b : Fin 8) (c : Fin 2048) (k : Fin 1024) : idx_main_v24 (ix2 b c) k = ix3 b c k := funext fun a => Fin.ext (by match a with | ⟨0, _⟩ => rfl | ⟨1, _⟩ => rfl | ⟨2, _⟩ => rfl)
theorem iv25 (b : Fin 8) (c : Fin 2048) (u : Fin 1) : idx_main_v25 (ix3 b c u) = ix2 b c := funext fun a => Fin.ext (by match a with | ⟨0, _⟩ => rfl | ⟨1, _⟩ => rfl)

theorem rmean0 (b : Fin 8) (c : Fin 2048) (u : Fin 1) :
    val_main_v27 (F := Ideal) x0 (ix3 b c u) = mean (row3 (val_main_v0 (F := Ideal) x0) b c) := by
  rw [val_main_v27_apply, val_main_v25_apply, iv25, val_main_v24_apply]
  show Ideal.div (wZero + _) w1024 = _
  rw [wZero_eq, zero_add]
  exact congrArg (fun s => Ideal.div s w1024) (Finset.sum_congr rfl fun k _ => by rw [iv24]; rfl)

/-! ### The softmax of the second embedding's rows -/

theorem iv16_v17 (b : Fin 8) (c : Fin 2048) (j : Fin 1024) : idx_main_v16 (idx_main_v17 (ix3 b c j)) = ix2 b c := funext fun a => Fin.ext (by match a with | ⟨0, _⟩ => rfl | ⟨1, _⟩ => rfl)
theorem iv20 (b : Fin 8) (c : Fin 2048) (k : Fin 1024) : idx_main_v20 (ix2 b c) k = ix3 b c k := funext fun a => Fin.ext (by match a with | ⟨0, _⟩ => rfl | ⟨1, _⟩ => rfl | ⟨2, _⟩ => rfl)
theorem iv21_v22 (b : Fin 8) (c : Fin 2048) (j : Fin 1024) : idx_main_v21 (idx_main_v22 (ix3 b c j)) = ix2 b c := funext fun a => Fin.ext (by match a with | ⟨0, _⟩ => rfl | ⟨1, _⟩ => rfl)

theorem rmax1 (b : Fin 8) (c : Fin 2048) (j : Fin 1024) :
    val_main_v17 (F := Ideal) x1 (ix3 b c j) = rowMax (row3 (val_main_v1 (F := Ideal) x1) b c) := by
  rw [val_main_v17_apply, val_main_v16_apply, val_main_v15_apply, iv16_v17]
  have h3 : val_main_v14 (F := Ideal) (ix2 b c) = wNegInf := by rw [val_main_v14_apply]; rfl
  have h2 : val_main_v13 (F := Ideal) x1 (ix2 b c) = rowMax (row3 (val_main_v1 (F := Ideal) x1) b c) := by
    unfold val_main_v13
    exact hostReduce_last (FloatOps.maximumf (F := Ideal)) reducesTo_S8x2048x1024_S8x2048_d2 (by decide) _ _ h_S_ b c
  rw [h3, h2]
  show max wNegInf _ = _
  rw [wNegInf_eq]
  exact max_bot_left _

theorem rexp1 (b : Fin 8) (c : Fin 2048) (j : Fin 1024) :
    val_main_v19 (F := Ideal) x1 (ix3 b c j) = rowExp (row3 (val_main_v1 (F := Ideal) x1) b c) j := by
  rw [val_main_v19_apply, val_main_v18_apply, rmax1]
  rfl

theorem rsum1 (b : Fin 8) (c : Fin 2048) :
    val_main_v20 (F := Ideal) x1 (ix2 b c) = ∑ k, rowExp (row3 (val_main_v1 (F := Ideal) x1) b c) k := by
  rw [val_main_v20_apply]
  show wZero + _ = _
  rw [wZero_eq, zero_add]
  exact Finset.sum_congr rfl fun k _ => by rw [iv20]; exact rexp1 x1 b c k

theorem rsm1 (b : Fin 8) (c : Fin 2048) (j : Fin 1024) :
    val_main_v23 (F := Ideal) x1 (ix3 b c j) = softmax (row3 (val_main_v1 (F := Ideal) x1) b c) j := by
  rw [val_main_v23_apply, val_main_v22_apply, val_main_v21_apply, iv21_v22, rexp1, rsum1]
  rfl

theorem iv28 (b : Fin 8) (c : Fin 2048) (k : Fin 1024) : idx_main_v28 (ix2 b c) k = ix3 b c k := funext fun a => Fin.ext (by match a with | ⟨0, _⟩ => rfl | ⟨1, _⟩ => rfl | ⟨2, _⟩ => rfl)
theorem iv29 (b : Fin 8) (c : Fin 2048) (u : Fin 1) : idx_main_v29 (ix3 b c u) = ix2 b c := funext fun a => Fin.ext (by match a with | ⟨0, _⟩ => rfl | ⟨1, _⟩ => rfl)

theorem rmean1 (b : Fin 8) (c : Fin 2048) (u : Fin 1) :
    val_main_v31 (F := Ideal) x1 (ix3 b c u) = mean (row3 (val_main_v1 (F := Ideal) x1) b c) := by
  rw [val_main_v31_apply, val_main_v29_apply, iv29, val_main_v28_apply]
  show Ideal.div (wZero + _) w1024 = _
  rw [wZero_eq, zero_add]
  exact congrArg (fun s => Ideal.div s w1024) (Finset.sum_congr rfl fun k _ => by rw [iv28]; rfl)

/-! ### The two inner terms and the gated embeddings -/

theorem i34 (b : Fin 8) (c : Fin 2048) (j : Fin 1024) : idx_main_v34 (ix3 b c j) = ix3 b c (0 : Fin 1) := funext fun a => Fin.ext (by match a with | ⟨0, _⟩ => rfl | ⟨1, _⟩ => rfl | ⟨2, _⟩ => rfl)
theorem i38 (b : Fin 8) (c : Fin 2048) (j : Fin 1024) : idx_main_v38 (ix3 b c j) = ix3 b c (0 : Fin 1) := funext fun a => Fin.ext (by match a with | ⟨0, _⟩ => rfl | ⟨1, _⟩ => rfl | ⟨2, _⟩ => rfl)

theorem rinner1 (b : Fin 8) (c : Fin 2048) (j : Fin 1024) :
    val_main_v36 (F := Ideal) x0 x1 (ix3 b c j)
      = inner1 (row3 (val_main_v0 (F := Ideal) x0) b c) (row3 (val_main_v1 (F := Ideal) x1) b c) j := by
  rw [val_main_v36_apply, val_main_v33_apply, val_main_v35_apply, val_main_v34_apply, i34, rmean1, rsm0]
  rfl

theorem rinner2 (b : Fin 8) (c : Fin 2048) (j : Fin 1024) :
    val_main_v42 (F := Ideal) x0 x1 (ix3 b c j)
      = inner2 (row3 (val_main_v0 (F := Ideal) x0) b c) (row3 (val_main_v1 (F := Ideal) x1) b c) j := by
  rw [val_main_v42_apply, val_main_v39_apply, val_main_v41_apply, val_main_v38_apply, i38, rmean0, rsm1]
  rfl

theorem i37 (b : Fin 8) (c : Fin 2048) (h w : Fin 32) : idx_main_v37 (ix4 b c h w) = ix3 b c (posOf h w) :=
  funext fun a => Fin.ext (by
    have hb := b.isLt; have hc := c.isLt; have hh := h.isLt; have hw := w.isLt
    match a with
    | ⟨0, _⟩ => show (((b.val * 2048 + c.val) * 32 + h.val) * 32 + w.val) / 2097152 = b.val; omega
    | ⟨1, _⟩ => show (((b.val * 2048 + c.val) * 32 + h.val) * 32 + w.val) / 1024 % 2048 = c.val; omega
    | ⟨2, _⟩ => show (((b.val * 2048 + c.val) * 32 + h.val) * 32 + w.val) % 1024 = h.val * 32 + w.val; omega)
theorem i43 (b : Fin 8) (c : Fin 2048) (h w : Fin 32) : idx_main_v43 (ix4 b c h w) = ix3 b c (posOf h w) :=
  funext fun a => Fin.ext (by
    have hb := b.isLt; have hc := c.isLt; have hh := h.isLt; have hw := w.isLt
    match a with
    | ⟨0, _⟩ => show (((b.val * 2048 + c.val) * 32 + h.val) * 32 + w.val) / 2097152 = b.val; omega
    | ⟨1, _⟩ => show (((b.val * 2048 + c.val) * 32 + h.val) * 32 + w.val) / 1024 % 2048 = c.val; omega
    | ⟨2, _⟩ => show (((b.val * 2048 + c.val) * 32 + h.val) * 32 + w.val) % 1024 = h.val * 32 + w.val; omega)

/-- The flattened embeddings' rows are the rows of the embeddings. -/
theorem rowR0 (b : Fin 8) (c : Fin 2048) : row3 (val_main_v0 (F := Ideal) x0) b c = row4 x0 b c := row3_flat x0 _ b c
theorem rowR1 (b : Fin 8) (c : Fin 2048) : row3 (val_main_v1 (F := Ideal) x1) b c = row4 x1 b c := row3_flat x1 _ b c

theorem at4 (x : (⟨S8x2048x32x32, .f32⟩ : BufTy).Contents (Elt Ideal)) (b : Fin 8) (c : Fin 2048) (h w : Fin 32) :
    x (ix4 b c h w) = row4 x b c (posOf h w) := by
  show x (ix4 b c h w) = x (ix4 b c (hOf (posOf h w)) (wOf (posOf h w)))
  rw [hOf_posOf, wOf_posOf]

theorem remb1 (b : Fin 8) (c : Fin 2048) (h w : Fin 32) :
    val_main_v45 (F := Ideal) x0 x1 (ix4 b c h w) = gateR1 (row4 x0 b c) (row4 x1 b c) (posOf h w) := by
  rw [val_main_v45_apply, val_main_v44_apply, val_main_v37_apply, i37, rinner1, rowR0, rowR1, at4 x0]
  rfl

theorem remb2 (b : Fin 8) (c : Fin 2048) (h w : Fin 32) :
    val_main_v47 (F := Ideal) x0 x1 (ix4 b c h w) = gateR2 (row4 x0 b c) (row4 x1 b c) (posOf h w) := by
  rw [val_main_v47_apply, val_main_v46_apply, val_main_v43_apply, i43, rinner2, rowR0, rowR1, at4 x1]
  rfl

end Cert.ReferenceIdeal.RefValue

end
-- ==== Proof.RefGate.lean ====
/-
  The reference program's second half, read at an index: the two gated embeddings joined along the channels (channel ch
  is the first embedding's for ch < 2048, the second's channel ch − 2048 above); the pooled value, their mean over the two
  image axes, which is the row mean; the gate 1/(1 + exp(−z)) of z = Σ_r max(Σ_k y(b,k)·w1(r,k), 0)·w2(ch,r), which is the
  logistic function of z; and the result  e·g + e.
-/
import proofs.«162184_j68135361184293_1_alg».proof.Proof.RefRows

noncomputable section

open scoped BigOperators

namespace Cert.ReferenceIdeal.RefValue

open Cert.ReferenceIdeal Cert.ReferenceIdeal.Gen Cert.ReferenceIdeal.ReadP Cert.Fuse Cert.Lib.LastAxis
open Idealize.ShloMosaic Idealize.ShloMosaic.ValueIdx

variable (x0 x1 : (⟨S8x2048x32x32, .f32⟩ : BufTy).Contents (Elt Ideal))
  (x2 : (⟨S256x4096, .f32⟩ : BufTy).Contents (Elt Ideal)) (x3 : (⟨S4096x256, .f32⟩ : BufTy).Contents (Elt Ideal))

theorem rcat (b : Fin 8) (ch : Fin 4096) (h w : Fin 32) :
    val_main_v48 (F := Ideal) x0 x1 (ix4 b ch h w) = embR x0 x1 b ch (posOf h w) := by
  unfold val_main_v48
  by_cases hlt : ch.val < 2048
  · refine (concatenate_pair_apply_left (1 : Fin 4) (val_main_v45 (F := Ideal) x0 x1) (val_main_v47 (F := Ideal) x0 x1)
      concatenates_S8x2048x32x32_S8x2048x32x32_S8x4096x32x32_d1 (ix4 b ch h w) rfl (ix4 b (loCh ch hlt) h w)
      (fun a => by match a with | ⟨0, _⟩ => rfl | ⟨1, _⟩ => rfl | ⟨2, _⟩ => rfl | ⟨3, _⟩ => rfl)).trans ?_
    rw [remb1]
    unfold Cert.Fuse.embR
    rw [dif_pos hlt]
  · refine (concatenate_pair_apply_right (1 : Fin 4) (val_main_v45 (F := Ideal) x0 x1) (val_main_v47 (F := Ideal) x0 x1)
      concatenates_S8x2048x32x32_S8x2048x32x32_S8x4096x32x32_d1 (ix4 b ch h w) rfl rfl (ix4 b (hiCh ch hlt) h w)
      (fun a ha => by match a with | ⟨0, _⟩ => rfl | ⟨1, _⟩ => exact absurd rfl ha | ⟨2, _⟩ => rfl | ⟨3, _⟩ => rfl)
      (by show ch.val - 2048 + 2048 = ch.val; omega)).trans ?_
    rw [remb2]
    unfold Cert.Fuse.embR
    rw [dif_neg hlt]

theorem rpool (b : Fin 8) (ch : Fin 4096) : val_main_v51 (F := Ideal) x0 x1 (ix2 b ch) = mean (embR x0 x1 b ch) := by
  rw [val_main_v51_apply, val_main_v50_apply]
  unfold val_main_v49
  simp only [Host.reduceAdd, Ideal.hostReduceAdd_def]
  unfold Ideal.hostReduceAdd
  show Ideal.div (wZero + ∑ i ∈ Finset.univ.filter (fun i => reducesTo_S8x4096x32x32_S8x4096_d2_3.drop i = ix2 b ch),
    val_main_v48 (F := Ideal) x0 x1 i) w1024 = _
  rw [sum_hw, wZero_eq, zero_add]
  refine congrArg (fun s => Ideal.div s w1024) (Finset.sum_congr rfl fun j _ => ?_)
  rw [rcat, posOf_hw]

theorem il53 (b : Fin 8) (r : Fin 256) (k : Fin 4096) : lidx_main_v53 (ix2 b r) k = ix2 b k := funext fun a => Fin.ext (by match a with | ⟨0, _⟩ => rfl | ⟨1, _⟩ => rfl)
theorem ir53 (b : Fin 8) (r : Fin 256) (k : Fin 4096) : ridx_main_v53 (ix2 b r) k = ix2 k r := funext fun a => Fin.ext (by match a with | ⟨0, _⟩ => rfl | ⟨1, _⟩ => rfl)
theorem i52 (k : Fin 4096) (r : Fin 256) : idx_main_v52 (ix2 k r) = ix2 r k := funext fun a => Fin.ext (by match a with | ⟨0, _⟩ => rfl | ⟨1, _⟩ => rfl)
theorem il56 (b : Fin 8) (ch : Fin 4096) (r : Fin 256) : lidx_main_v56 (ix2 b ch) r = ix2 b r := funext fun a => Fin.ext (by match a with | ⟨0, _⟩ => rfl | ⟨1, _⟩ => rfl)
theorem ir56 (b : Fin 8) (ch : Fin 4096) (r : Fin 256) : ridx_main_v56 (ix2 b ch) r = ix2 r ch := funext fun a => Fin.ext (by match a with | ⟨0, _⟩ => rfl | ⟨1, _⟩ => rfl)
theorem i55 (r : Fin 256) (ch : Fin 4096) : idx_main_v55 (ix2 r ch) = ix2 ch r := funext fun a => Fin.ext (by match a with | ⟨0, _⟩ => rfl | ⟨1, _⟩ => rfl)

theorem rhid (b : Fin 8) (r : Fin 256) :
    val_main_v54 (F := Ideal) x0 x1 x2 (ix2 b r) = Cert.Fuse.hidden x2 (fun b k => mean (embR x0 x1 b k)) b r := by
  rw [val_main_v54_apply, val_main_v53_apply, val_main_call0_v0_apply]
  show max (∑ k : Fin 4096, val_main_v51 (F := Ideal) x0 x1 (lidx_main_v53 (ix2 b r) k) * val_main_v52 (F := Ideal) x2 (ridx_main_v53 (ix2 b r) k)) wZero = _
  unfold Cert.Fuse.hidden
  refine congrArg (fun s => max s wZero) (Finset.sum_congr rfl fun k _ => ?_)
  rw [il53, ir53, rpool, val_main_v52_apply, i52]

theorem rgate (b : Fin 8) (ch : Fin 4096) :
    val_main_v62 (F := Ideal) x0 x1 x2 x3 (ix2 b ch) = gate x2 x3 (fun b k => mean (embR x0 x1 b k)) b ch := by
  rw [val_main_v62_apply, val_main_v61_apply, val_main_v60_apply, val_main_v59_apply, val_main_v58_apply, val_main_v57_apply, val_main_v56_apply]
  show Ideal.div wOne (wOne + Ideal.exp (-(∑ r : Fin 256, val_main_v54 (F := Ideal) x0 x1 x2 (lidx_main_v56 (ix2 b ch) r) * val_main_v55 (F := Ideal) x3 (ridx_main_v56 (ix2 b ch) r)))) = _
  unfold gate Ideal.logistic
  rw [wOne_eq]
  refine congrArg (fun s => Ideal.div 1 (1 + Ideal.exp (-s))) (Finset.sum_congr rfl fun r _ => ?_)
  rw [il56, ir56, rhid, val_main_v55_apply, i55]

theorem i63_64 (b : Fin 8) (ch : Fin 4096) (h w : Fin 32) : idx_main_v63 (idx_main_v64 (ix4 b ch h w)) = ix2 b ch := funext fun a => Fin.ext (by match a with | ⟨0, _⟩ => rfl | ⟨1, _⟩ => rfl)

/-- The reference's result is the arrangement c·g + c of the gated embeddings and the gate. -/
theorem ref_value : val_main_v66 (F := Ideal) x0 x1 x2 x3 = outR x0 x1 x2 x3 := by
  funext i
  obtain ⟨b, ch, h, w, rfl⟩ : ∃ (b : Fin 8) (ch : Fin 4096) (h w : Fin 32), i = ix4 b ch h w := ⟨i 0, i 1, i 2, i 3, eq_ix4 i⟩
  rw [val_main_v66_apply, val_main_v65_apply, val_main_v64_apply, val_main_v63_apply, i63_64, rgate, rcat]
  rfl

end Cert.ReferenceIdeal.RefValue

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.Finite.lean ====
/-
  The precondition says every entry of the four inputs is finite; it is the conjunction of four "all entries have absolute
  value below +∞" tests.  From it: every entry of the two embeddings is a real number.
-/
import proofs.«162184_j68135361184293_1_alg».proof.Proof.Gen.Pre_finite_inputs
import proofs.«162184_j68135361184293_1_alg».proof.Proof.LibFinite
import Idealize.ShloMosaic.Lib.Affine

noncomputable section

open scoped BigOperators

namespace Cert.Proof.Finite

open Idealize.ShloMosaic Idealize.ShloMosaic.ValueIdx Cert.Pre_finite_inputs

theorem embeddings_real (a0 a1 : FVec Ideal S8x2048x32x32 .f32) (a2 : FVec Ideal S256x4096 .f32) (a3 : FVec Ideal S4096x256 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) := by
  have h0 := congrFun h ix0
  dsimp only [Cert.Pre_finite_inputs.fn, Cert.Pre_finite_inputs.fn_part1] at h0
  have h1 := (IntOp.andi_eq_one.mp h0).1
  have h2 := (IntOp.andi_eq_one.mp h1).1
  obtain ⟨h3, h7⟩ := IntOp.andi_eq_one.mp h2
  exact ⟨Cert.LibFinite.real_of_all a0 _ _ _ ix0 h3,
    Cert.LibFinite.real_of_all a1 _ _ _ ix0 h7⟩

end Cert.Proof.Finite

end
-- ==== Proof.lean ====
/-
  The certificate of the fused cross-attention / channel-gate block: the kernel program (four launches: the row statistics
  and pooled values; the gate from the pooled values; the two channel halves of the output) against the plain reference.

  On the extended reals both programs compute, for every (batch, channel) row x of the two embeddings, the softmax of the
  row, the row means, the inner term (x/1024 + mean(other)·softmax(x) for the first embedding, softmax(x)·mean(other) + x/1024
  for the second), the gated row, its mean y, the gate g = logistic(Σ_r max(Σ_k y_k·w1(r,k), 0)·w2(ch,r)), and the result.
  They differ in two arrangements only: the gated row is x·(inner + 1) in the kernel and x·inner + x in the reference, equal
  because every entry x is a real number (the precondition); the result is c·(1 + g) in the kernel and c·g + c in the
  reference, equal for every extended real c because 1 and g are nonnegative.  Everything else — the tiling into blocks of
  64 or 128 channels, the (channel, batch) layout of the small tables, the channel halves written by two launches into one
  buffer, the flattening of the 32 × 32 images — is a re-laying of the same entries.
-/
import proofs.«162184_j68135361184293_1_alg».proof.Defs
import proofs.«162184_j68135361184293_1_alg».proof.Proof.Gen.Kernel
import proofs.«162184_j68135361184293_1_alg».proof.Proof.Gen.Kernel.Frame
import proofs.«162184_j68135361184293_1_alg».proof.Proof.Gen.KernelIdeal
import proofs.«162184_j68135361184293_1_alg».proof.Proof.Gen.KernelIdeal.Frame
import proofs.«162184_j68135361184293_1_alg».proof.Proof.Gen.ReferenceIdeal
import proofs.«162184_j68135361184293_1_alg».proof.Proof.Gen.Pre_finite_inputs
import proofs.«162184_j68135361184293_1_alg».proof.Proof.RunAll
import proofs.«162184_j68135361184293_1_alg».proof.Proof.KernelValue
import proofs.«162184_j68135361184293_1_alg».proof.Proof.RefGate
import proofs.«162184_j68135361184293_1_alg».proof.Proof.Finite
import Idealize.ShloMosaic.Adequacy
import Idealize.ShloMosaic.Init

noncomputable section

namespace Cert.Proof

open Idealize.ShloMosaic Idealize.ShloMosaic.TcCoe Idealize.SL.Sem

/-- The reference runs and keeps its arguments: its run with the result dropped. -/
theorem frame_ref : Cert.frame_ReferenceIdeal := fun m ρ _ =>
  (θ_run Cert.ReferenceIdeal.defs _ _).mono (fun _ h c => (h c).2) (Cert.ReferenceIdeal.ValueP.run (F := Ideal) m ρ)

/-- Both idealized programs end with the same result: the kernel's run names every buffer at the return, its result buffer is
    the arrangement c·(1 + g) of the arguments, the reference's result is the arrangement c·g + c, and under the precondition
    the two arrangements are one function. -/
theorem algebraic : Cert.algebraic_KernelIdeal_ReferenceIdeal := by
  intro m ρ m' ρ' hpre hagree
  refine ⟨fun c => Cert.Fuse.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.Whole.run_all m ρ)
    · exact (h c _ (Cert.KernelIdeal.Gen.mem_uc Cert.KernelIdeal.main_v12 (by decide))).trans (Cert.KernelIdeal.Val.kernel_value m ρ c)
    · exact (h c _ (Cert.KernelIdeal.Gen.mem_uc Cert.KernelIdeal.main_arg0 (by decide))).trans (Cert.KernelIdeal.Gen.W9_main_arg0 m ρ c)
    · exact (h c _ (Cert.KernelIdeal.Gen.mem_uc Cert.KernelIdeal.main_arg1 (by decide))).trans (Cert.KernelIdeal.Gen.W9_main_arg1 m ρ c)
    · exact (h c _ (Cert.KernelIdeal.Gen.mem_uc Cert.KernelIdeal.main_arg2 (by decide))).trans (Cert.KernelIdeal.Gen.W9_main_arg2 m ρ c)
    · exact (h c _ (Cert.KernelIdeal.Gen.mem_uc Cert.KernelIdeal.main_arg3 (by decide))).trans (Cert.KernelIdeal.Gen.W9_main_arg3 m ρ c)
  · refine (θ_run Cert.ReferenceIdeal.defs _ _).mono (fun r h c => ⟨?_, (h c).2⟩) (Cert.ReferenceIdeal.ValueP.run (F := Ideal) m' ρ')
    obtain ⟨hr0, hr1⟩ := Cert.Proof.Finite.embeddings_real _ _ _ _ (hpre c)
    rw [(h c).1, Cert.ReferenceIdeal.ReadP.val_main_v66_eq, Cert.ReferenceIdeal.RefValue.ref_value,
      (hagree c).1, (hagree c).2.1, (hagree c).2.2.1, (hagree c).2.2.2]
    exact (Cert.Fuse.outK_eq_outR _ _ _ _ hr0 hr1).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref, trivial, algebraic⟩

end Cert.Proof

end
